-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S_ : Shape := ⟨0, ![]⟩
abbrev S4096 : Shape := ⟨1, ![4096]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  reducesTo_S_S_d : S_.ReducesTo [] S_

variable [Facts]

def fn {F : FTy → Type} [FloatOps F] (main_arg0 : FVec F S4096x1024 .f32) (main_arg1 : FVec F S4096x1024 .f32) (main_arg2 : FVec F S_ .f32) (main_arg3 : IVec S4096 32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S_ .f32 := Host.absf main_arg2
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  main_v12
-- ==== Kernel.lean ====
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S512x1024 : Shape := ⟨2, ![512, 1024]⟩
abbrev S512x512 : Shape := ⟨2, ![512, 512]⟩
abbrev S1x4096 : Shape := ⟨2, ![1, 4096]⟩

abbrev nBuf : Space → Nat
  | .hbm => 136
  | .vmem => 8
  | .smem => 0
  | _ => 0

abbrev hbmTy0_0 (i : Nat) : BufTy := match i % 128 with
  | 0 => ⟨S4096x1024, .f32⟩
  | 1 => ⟨S4096x1024, .f32⟩
  | 2 => ⟨S_, .f32⟩
  | 3 => ⟨S4096, .i32⟩
  | 4 => ⟨S4096x1024, .f32⟩
  | 5 => ⟨S_, .f32⟩
  | 6 => ⟨S4096, .f32⟩
  | 7 => ⟨S4096x1, .f32⟩
  | 8 => ⟨S4096x1, .f32⟩
  | 9 => ⟨S_, .f32⟩
  | 10 => ⟨S4096x1, .f32⟩
  | 11 => ⟨S4096x1, .f32⟩
  | 12 => ⟨S4096x1024, .f32⟩
  | 13 => ⟨S4096x1024, .f32⟩
  | 14 => ⟨S4096x1024, .f32⟩
  | 15 => ⟨S_, .f32⟩
  | 16 => ⟨S4096, .f32⟩
  | 17 => ⟨S4096x1, .f32⟩
  | 18 => ⟨S4096x1, .f32⟩
  | 19 => ⟨S_, .f32⟩
  | 20 => ⟨S4096x1, .f32⟩
  | 21 => ⟨S4096x1, .f32⟩
  | 22 => ⟨S4096x1024, .f32⟩
  | 23 => ⟨S4096x1024, .f32⟩
  | 24 => ⟨S_, .f32⟩
  | 25 => ⟨S4096x1024, .f32⟩
  | 26 => ⟨S4096x1024, .f32⟩
  | 27 => ⟨S4096x1024, .bf16⟩
  | 28 => ⟨S4096x1024, .bf16⟩
  | 29 => ⟨S4096x4096, .f32⟩
  | 30 => ⟨S4096x4096, .f32⟩
  | 31 => ⟨S4096, .f32⟩
  | 32 => ⟨S1x4096, .f32⟩
  | 33 => ⟨S_, .f32⟩
  | 34 => ⟨S1x4096, .f32⟩
  | 35 => ⟨S1x4096, .i1⟩
  | 36 => ⟨S_, .f32⟩
  | 37 => ⟨S_, .f32⟩
  | 38 => ⟨S1x4096, .f32⟩
  | 39 => ⟨S1x4096, .f32⟩
  | 40 => ⟨S1x4096, .f32⟩
  | 41 => ⟨S4096x1, .f32⟩
  | 42 => ⟨S_, .f32⟩
  | 43 => ⟨S4096x1, .f32⟩
  | 44 => ⟨S4096x1, .i1⟩
  | 45 => ⟨S1x4096, .f32⟩
  | 46 => ⟨S4096x4096, .f32⟩
  | 47 => ⟨S1x4096, .f32⟩
  | 48 => ⟨S4096x4096, .i1⟩
  | 49 => ⟨S4096x4096, .f32⟩
  | 50 => ⟨S4096x4096, .f32⟩
  | 51 => ⟨S_, .f32⟩
  | 52 => ⟨S4096, .f32⟩
  | 53 => ⟨S_, .f32⟩
  | 54 => ⟨S4096, .f32⟩
  | 55 => ⟨S4096, .f32⟩
  | 56 => ⟨S4096x1, .f32⟩
  | 57 => ⟨S4096x4096, .f32⟩
  | 58 => ⟨S4096x4096, .f32⟩
  | 59 => ⟨S4096x4096, .f32⟩
  | 60 => ⟨S_, .f32⟩
  | 61 => ⟨S4096, .f32⟩
  | 62 => ⟨S4096x1, .f32⟩
  | 63 => ⟨S4096x1, .f32⟩
  | 64 => ⟨S4096x4096, .f32⟩
  | 65 => ⟨S4096x4096, .f32⟩
  | 66 => ⟨S_, .f32⟩
  | 67 => ⟨S4096, .f32⟩
  | 68 => ⟨S_, .f32⟩
  | 69 => ⟨S4096, .f32⟩
  | 70 => ⟨S4096, .f32⟩
  | 71 => ⟨S4096x1, .f32⟩
  | 72 => ⟨S4096x4096, .f32⟩
  | 73 => ⟨S4096x4096, .f32⟩
  | 74 => ⟨S4096x4096, .f32⟩
  | 75 => ⟨S_, .f32⟩
  | 76 => ⟨S4096, .f32⟩
  | 77 => ⟨S4096x1, .f32⟩
  | 78 => ⟨S4096x1, .f32⟩
  | 79 => ⟨S4096x4096, .f32⟩
  | 80 => ⟨S4096x4096, .f32⟩
  | 81 => ⟨S_, .f32⟩
  | 82 => ⟨S4096, .f32⟩
  | 83 => ⟨S4096x1, .f32⟩
  | 84 => ⟨S4096x4096, .f32⟩
  | 85 => ⟨S4096x4096, .f32⟩
  | 86 => ⟨S_, .f32⟩
  | 87 => ⟨S4096, .f32⟩
  | 88 => ⟨S_, .f32⟩
  | 89 => ⟨S4096, .f32⟩
  | 90 => ⟨S4096, .f32⟩
  | 91 => ⟨S4096x1, .f32⟩
  | 92 => ⟨S4096x4096, .f32⟩
  | 93 => ⟨S4096x4096, .f32⟩
  | 94 => ⟨S4096x4096, .f32⟩
  | 95 => ⟨S_, .f32⟩
  | 96 => ⟨S4096, .f32⟩
  | 97 => ⟨S4096x1, .f32⟩
  | 98 => ⟨S4096x4096, .f32⟩
  | 99 => ⟨S4096x4096, .f32⟩
  | 100 => ⟨S4096x4096, .f32⟩
  | 101 => ⟨S4096x4096, .f32⟩
  | 102 => ⟨S4096x4096, .f32⟩
  | 103 => ⟨S4096x4096, .f32⟩
  | 104 => ⟨S_, .f32⟩
  | 105 => ⟨S_, .f32⟩
  | 106 => ⟨S_, .f32⟩
  | 107 => ⟨S_, .f32⟩
  | 108 => ⟨S4096x4096, .f32⟩
  | 109 => ⟨S4096x4096, .f32⟩
  | 110 => ⟨S4096x4096, .f32⟩
  | 111 => ⟨S4096x4096, .f32⟩
  | 112 => ⟨S_, .f32⟩
  | 113 => ⟨S_, .f32⟩
  | 114 => ⟨S_, .f32⟩
  | 115 => ⟨S_, .f32⟩
  | 116 => ⟨S4096x4096, .f32⟩
  | 117 => ⟨S4096x4096, .f32⟩
  | 118 => ⟨S4096x4096, .f32⟩
  | 119 => ⟨S_, .f32⟩
  | 120 => ⟨S_, .f32⟩
  | 121 => ⟨S_, .f32⟩
  | 122 => ⟨S_, .f32⟩
  | 123 => ⟨S4096x4096, .f32⟩
  | 124 => ⟨S4096x4096, .f32⟩
  | 125 => ⟨S4096x4096, .f32⟩
  | 126 => ⟨S4096x4096, .f32⟩
  | 127 => ⟨S_, .f32⟩
  | _ => ⟨S4096x1024, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21_0 : Ref sig .tc := ⟨.hbm, 29, rfl⟩
abbrev main_v21_1 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_cst_5 : Ref sig .tc := ⟨.hbm, 37, rfl⟩
abbrev main_call0_v0 : Ref sig .tc := ⟨.hbm, 38, rfl⟩
abbrev main_call0_v1 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v32 : Ref sig .tc := ⟨.hbm, 50, rfl⟩
abbrev main_call2_cst : Ref sig .tc := ⟨.hbm, 51, rfl⟩
abbrev main_call2_v0 : Ref sig .tc := ⟨.hbm, 52, rfl⟩
abbrev main_call2_cst_0 : Ref sig .tc := ⟨.hbm, 53, rfl⟩
abbrev main_call2_v1 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_v5 : Ref sig .tc := ⟨.hbm, 58, rfl⟩
abbrev main_call2_v6 : Ref sig .tc := ⟨.hbm, 59, rfl⟩
abbrev main_call2_cst_1 : Ref sig .tc := ⟨.hbm, 60, rfl⟩
abbrev main_call2_v7 : Ref sig .tc := ⟨.hbm, 61, rfl⟩
abbrev main_call2_v8 : Ref sig .tc := ⟨.hbm, 62, rfl⟩
abbrev main_call2_v9 : Ref sig .tc := ⟨.hbm, 63, rfl⟩
abbrev main_call2_v10 : Ref sig .tc := ⟨.hbm, 64, rfl⟩
abbrev main_v33 : Ref sig .tc := ⟨.hbm, 65, rfl⟩
abbrev main_call3_cst : Ref sig .tc := ⟨.hbm, 66, rfl⟩
abbrev main_call3_v0 : Ref sig .tc := ⟨.hbm, 67, rfl⟩
abbrev main_call3_cst_0 : Ref sig .tc := ⟨.hbm, 68, rfl⟩
abbrev main_call3_v1 : Ref sig .tc := ⟨.hbm, 69, rfl⟩
abbrev main_call3_v2 : Ref sig .tc := ⟨.hbm, 70, rfl⟩
abbrev main_call3_v3 : Ref sig .tc := ⟨.hbm, 71, rfl⟩
abbrev main_call3_v4 : Ref sig .tc := ⟨.hbm, 72, rfl⟩
abbrev main_call3_v5 : Ref sig .tc := ⟨.hbm, 73, rfl⟩
abbrev main_call3_v6 : Ref sig .tc := ⟨.hbm, 74, rfl⟩
abbrev main_call3_cst_1 : Ref sig .tc := ⟨.hbm, 75, rfl⟩
abbrev main_call3_v7 : Ref sig .tc := ⟨.hbm, 76, rfl⟩
abbrev main_call3_v8 : Ref sig .tc := ⟨.hbm, 77, rfl⟩
abbrev main_call3_v9 : Ref sig .tc := ⟨.hbm, 78, rfl⟩
abbrev main_call3_v10 : Ref sig .tc := ⟨.hbm, 79, rfl⟩
abbrev main_v34 : Ref sig .tc := ⟨.hbm, 80, rfl⟩
abbrev main_cst_7 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_cst_8 : Ref sig .tc := ⟨.hbm, 86, rfl⟩
abbrev main_v39 : Ref sig .tc := ⟨.hbm, 87, rfl⟩
abbrev main_cst_9 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_cst_10 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_cst_11 : Ref sig .tc := ⟨.hbm, 104, rfl⟩
abbrev main_v54 : Ref sig .tc := ⟨.hbm, 105, rfl⟩
abbrev main_cst_12 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_cst_13 : Ref sig .tc := ⟨.hbm, 112, rfl⟩
abbrev main_v60 : Ref sig .tc := ⟨.hbm, 113, rfl⟩
abbrev main_cst_14 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_cst_15 : Ref sig .tc := ⟨.hbm, 119, rfl⟩
abbrev main_v65 : Ref sig .tc := ⟨.hbm, 120, rfl⟩
abbrev main_cst_16 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_cst_17 : Ref sig .tc := ⟨.hbm, 127, rfl⟩
abbrev main_v71 : Ref sig .tc := ⟨.hbm, 128, rfl⟩
abbrev main_cst_18 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_cst_19 : Ref sig .tc := ⟨.hbm, 134, rfl⟩
abbrev main_v76 : Ref sig .tc := ⟨.hbm, 135, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  reducesTo_S4096x1024_S4096_d1 : S4096x1024.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x1024_0_1 : S4096x1.BroadcastsInDim S4096x1024 (![0, 1] : Fin 2 → Fin S4096x1024.rank)
  bcast_S_S4096x1024 : S_.BroadcastsInDim S4096x1024 (![] : Fin 0 → Fin S4096x1024.rank)
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x512_S512x512_0_0 : ∀ a, (![0, 0] : Fin 2 → Nat) a + S512x512.size a ≤ S512x512.size a
  h_S512x512 : 0 < S512x512.numel
  transposes_S512x512_p1_0_S512x512 : S512x512.Transposes [1, 0] S512x512
  bcast_S4096_S1x4096_1 : S4096.BroadcastsInDim S1x4096 (![1] : Fin 1 → Fin S1x4096.rank)
  bcast_S_S1x4096 : S_.BroadcastsInDim S1x4096 (![] : Fin 0 → Fin S1x4096.rank)
  bcast_S1x4096_S4096x4096_0_1 : S1x4096.BroadcastsInDim S4096x4096 (![0, 1] : Fin 2 → Fin S4096x4096.rank)
  bcast_S4096x1_S4096x4096_0_1 : S4096x1.BroadcastsInDim S4096x4096 (![0, 1] : Fin 2 → Fin S4096x4096.rank)
  reducesTo_S4096x4096_S4096_d1 : S4096x4096.ReducesTo [1] S4096
  bcast_S_S4096 : S_.BroadcastsInDim S4096 (![] : Fin 0 → Fin S4096.rank)
  reducesTo_S4096x4096_S_d0_1 : S4096x4096.ReducesTo [0, 1] S_
  dot_S512x1024_S512x1024_S512x512_1_1_0_0_n_n_wf : DotDims.WF S512x1024 S512x1024 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .bf16 = 32 ∨ (Rect.block (s := S4096x1024) S512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x1024.size a
  hwx0_1 : ∀ i : grid0.Coords, EltTy.bits .bf16 = 32 ∨ (Rect.block (s := S4096x1024) S512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S4096x4096.size a
  hwx0_2 : ∀ i : grid0.Coords, EltTy.bits .f32 = 32 ∨ (Rect.block (s := S4096x4096) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S4096x4096.size a
  hwx0_3 : ∀ i : grid0.Coords, EltTy.bits .f32 = 32 ∨ (Rect.block (s := S4096x4096) S512x512.size (cc0_transform_3 i) (hinb0_3 i)).WholeWords (EltTy.packing .f32)

variable [Facts₀]

def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf

abbrev win0_0 : Pipeline.Window sig grid0 :=
  Pipeline.Window.ofSpec (Memref.whole main_v19) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21_0) S512x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21_1) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1024x4096 : Shape := ⟨2, ![1024, 4096]⟩
abbrev S4096x4096 : Shape := ⟨2, ![4096, 4096]⟩
abbrev S1x4096 : Shape := ⟨2, ![1, 4096]⟩

abbrev nBuf : Space → Nat
  | .hbm => 138
  | .vmem => 0
  | .smem => 0
  | _ => 0

abbrev hbmTy0_0 (i : Nat) : BufTy := match i % 128 with
  | 0 => ⟨S4096x1024, .f32⟩
  | 1 => ⟨S4096x1024, .f32⟩
  | 2 => ⟨S_, .f32⟩
  | 3 => ⟨S4096, .i32⟩
  | 4 => ⟨S4096x1024, .f32⟩
  | 5 => ⟨S_, .f32⟩
  | 6 => ⟨S4096, .f32⟩
  | 7 => ⟨S4096x1, .f32⟩
  | 8 => ⟨S4096x1, .f32⟩
  | 9 => ⟨S_, .f32⟩
  | 10 => ⟨S4096x1, .f32⟩
  | 11 => ⟨S4096x1, .f32⟩
  | 12 => ⟨S4096x1024, .f32⟩
  | 13 => ⟨S4096x1024, .f32⟩
  | 14 => ⟨S4096x1024, .f32⟩
  | 15 => ⟨S_, .f32⟩
  | 16 => ⟨S4096, .f32⟩
  | 17 => ⟨S4096x1, .f32⟩
  | 18 => ⟨S4096x1, .f32⟩
  | 19 => ⟨S_, .f32⟩
  | 20 => ⟨S4096x1, .f32⟩
  | 21 => ⟨S4096x1, .f32⟩
  | 22 => ⟨S4096x1024, .f32⟩
  | 23 => ⟨S4096x1024, .f32⟩
  | 24 => ⟨S_, .f32⟩
  | 25 => ⟨S1024x4096, .f32⟩
  | 26 => ⟨S4096x4096, .f32⟩
  | 27 => ⟨S4096x4096, .f32⟩
  | 28 => ⟨S4096x4096, .f32⟩
  | 29 => ⟨S1024x4096, .f32⟩
  | 30 => ⟨S4096x4096, .f32⟩
  | 31 => ⟨S4096x4096, .f32⟩
  | 32 => ⟨S4096x4096, .f32⟩
  | 33 => ⟨S4096, .f32⟩
  | 34 => ⟨S1x4096, .f32⟩
  | 35 => ⟨S_, .f32⟩
  | 36 => ⟨S1x4096, .f32⟩
  | 37 => ⟨S1x4096, .i1⟩
  | 38 => ⟨S_, .f32⟩
  | 39 => ⟨S_, .f32⟩
  | 40 => ⟨S1x4096, .f32⟩
  | 41 => ⟨S1x4096, .f32⟩
  | 42 => ⟨S1x4096, .f32⟩
  | 43 => ⟨S4096x1, .f32⟩
  | 44 => ⟨S_, .f32⟩
  | 45 => ⟨S4096x1, .f32⟩
  | 46 => ⟨S4096x1, .i1⟩
  | 47 => ⟨S1x4096, .f32⟩
  | 48 => ⟨S4096x4096, .f32⟩
  | 49 => ⟨S1x4096, .f32⟩
  | 50 => ⟨S4096x4096, .i1⟩
  | 51 => ⟨S4096x4096, .f32⟩
  | 52 => ⟨S4096x4096, .f32⟩
  | 53 => ⟨S_, .f32⟩
  | 54 => ⟨S4096, .f32⟩
  | 55 => ⟨S_, .f32⟩
  | 56 => ⟨S4096, .f32⟩
  | 57 => ⟨S4096, .f32⟩
  | 58 => ⟨S4096x1, .f32⟩
  | 59 => ⟨S4096x4096, .f32⟩
  | 60 => ⟨S4096x4096, .f32⟩
  | 61 => ⟨S4096x4096, .f32⟩
  | 62 => ⟨S_, .f32⟩
  | 63 => ⟨S4096, .f32⟩
  | 64 => ⟨S4096x1, .f32⟩
  | 65 => ⟨S4096x1, .f32⟩
  | 66 => ⟨S4096x4096, .f32⟩
  | 67 => ⟨S4096x4096, .f32⟩
  | 68 => ⟨S_, .f32⟩
  | 69 => ⟨S4096, .f32⟩
  | 70 => ⟨S_, .f32⟩
  | 71 => ⟨S4096, .f32⟩
  | 72 => ⟨S4096, .f32⟩
  | 73 => ⟨S4096x1, .f32⟩
  | 74 => ⟨S4096x4096, .f32⟩
  | 75 => ⟨S4096x4096, .f32⟩
  | 76 => ⟨S4096x4096, .f32⟩
  | 77 => ⟨S_, .f32⟩
  | 78 => ⟨S4096, .f32⟩
  | 79 => ⟨S4096x1, .f32⟩
  | 80 => ⟨S4096x1, .f32⟩
  | 81 => ⟨S4096x4096, .f32⟩
  | 82 => ⟨S4096x4096, .f32⟩
  | 83 => ⟨S_, .f32⟩
  | 84 => ⟨S4096, .f32⟩
  | 85 => ⟨S4096x1, .f32⟩
  | 86 => ⟨S4096x4096, .f32⟩
  | 87 => ⟨S4096x4096, .f32⟩
  | 88 => ⟨S_, .f32⟩
  | 89 => ⟨S4096, .f32⟩
  | 90 => ⟨S_, .f32⟩
  | 91 => ⟨S4096, .f32⟩
  | 92 => ⟨S4096, .f32⟩
  | 93 => ⟨S4096x1, .f32⟩
  | 94 => ⟨S4096x4096, .f32⟩
  | 95 => ⟨S4096x4096, .f32⟩
  | 96 => ⟨S4096x4096, .f32⟩
  | 97 => ⟨S_, .f32⟩
  | 98 => ⟨S4096, .f32⟩
  | 99 => ⟨S4096x1, .f32⟩
  | 100 => ⟨S4096x4096, .f32⟩
  | 101 => ⟨S4096x4096, .f32⟩
  | 102 => ⟨S4096x4096, .f32⟩
  | 103 => ⟨S4096x4096, .f32⟩
  | 104 => ⟨S4096x4096, .f32⟩
  | 105 => ⟨S4096x4096, .f32⟩
  | 106 => ⟨S_, .f32⟩
  | 107 => ⟨S_, .f32⟩
  | 108 => ⟨S_, .f32⟩
  | 109 => ⟨S_, .f32⟩
  | 110 => ⟨S4096x4096, .f32⟩
  | 111 => ⟨S4096x4096, .f32⟩
  | 112 => ⟨S4096x4096, .f32⟩
  | 113 => ⟨S4096x4096, .f32⟩
  | 114 => ⟨S_, .f32⟩
  | 115 => ⟨S_, .f32⟩
  | 116 => ⟨S_, .f32⟩
  | 117 => ⟨S_, .f32⟩
  | 118 => ⟨S4096x4096, .f32⟩
  | 119 => ⟨S4096x4096, .f32⟩
  | 120 => ⟨S4096x4096, .f32⟩
  | 121 => ⟨S_, .f32⟩
  | 122 => ⟨S_, .f32⟩
  | 123 => ⟨S_, .f32⟩
  | 124 => ⟨S_, .f32⟩
  | 125 => ⟨S4096x4096, .f32⟩
  | 126 => ⟨S4096x4096, .f32⟩
  | 127 => ⟨S4096x4096, .f32⟩
  | _ => ⟨S4096x1024, .f32⟩

abbrev hbmTy0_1 (i : Nat) : BufTy := match i % 128 with
  | 0 => ⟨S4096x4096, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_cst_5 : Ref sig .tc := ⟨.hbm, 39, rfl⟩
abbrev main_call0_v0 : Ref sig .tc := ⟨.hbm, 40, rfl⟩
abbrev main_call0_v1 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_v35 : Ref sig .tc := ⟨.hbm, 52, rfl⟩
abbrev main_call2_cst : Ref sig .tc := ⟨.hbm, 53, rfl⟩
abbrev main_call2_v0 : Ref sig .tc := ⟨.hbm, 54, rfl⟩
abbrev main_call2_cst_0 : Ref sig .tc := ⟨.hbm, 55, rfl⟩
abbrev main_call2_v1 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_call2_v5 : Ref sig .tc := ⟨.hbm, 60, rfl⟩
abbrev main_call2_v6 : Ref sig .tc := ⟨.hbm, 61, rfl⟩
abbrev main_call2_cst_1 : Ref sig .tc := ⟨.hbm, 62, rfl⟩
abbrev main_call2_v7 : Ref sig .tc := ⟨.hbm, 63, rfl⟩
abbrev main_call2_v8 : Ref sig .tc := ⟨.hbm, 64, rfl⟩
abbrev main_call2_v9 : Ref sig .tc := ⟨.hbm, 65, rfl⟩
abbrev main_call2_v10 : Ref sig .tc := ⟨.hbm, 66, rfl⟩
abbrev main_v36 : Ref sig .tc := ⟨.hbm, 67, rfl⟩
abbrev main_call3_cst : Ref sig .tc := ⟨.hbm, 68, rfl⟩
abbrev main_call3_v0 : Ref sig .tc := ⟨.hbm, 69, rfl⟩
abbrev main_call3_cst_0 : Ref sig .tc := ⟨.hbm, 70, rfl⟩
abbrev main_call3_v1 : Ref sig .tc := ⟨.hbm, 71, rfl⟩
abbrev main_call3_v2 : Ref sig .tc := ⟨.hbm, 72, rfl⟩
abbrev main_call3_v3 : Ref sig .tc := ⟨.hbm, 73, rfl⟩
abbrev main_call3_v4 : Ref sig .tc := ⟨.hbm, 74, rfl⟩
abbrev main_call3_v5 : Ref sig .tc := ⟨.hbm, 75, rfl⟩
abbrev main_call3_v6 : Ref sig .tc := ⟨.hbm, 76, rfl⟩
abbrev main_call3_cst_1 : Ref sig .tc := ⟨.hbm, 77, rfl⟩
abbrev main_call3_v7 : Ref sig .tc := ⟨.hbm, 78, rfl⟩
abbrev main_call3_v8 : Ref sig .tc := ⟨.hbm, 79, rfl⟩
abbrev main_call3_v9 : Ref sig .tc := ⟨.hbm, 80, rfl⟩
abbrev main_call3_v10 : Ref sig .tc := ⟨.hbm, 81, rfl⟩
abbrev main_v37 : Ref sig .tc := ⟨.hbm, 82, rfl⟩
abbrev main_cst_7 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_cst_8 : Ref sig .tc := ⟨.hbm, 88, rfl⟩
abbrev main_v42 : Ref sig .tc := ⟨.hbm, 89, rfl⟩
abbrev main_cst_9 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_cst_10 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_cst_11 : Ref sig .tc := ⟨.hbm, 106, rfl⟩
abbrev main_v57 : Ref sig .tc := ⟨.hbm, 107, rfl⟩
abbrev main_cst_12 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_cst_13 : Ref sig .tc := ⟨.hbm, 114, rfl⟩
abbrev main_v63 : Ref sig .tc := ⟨.hbm, 115, rfl⟩
abbrev main_cst_14 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_cst_15 : Ref sig .tc := ⟨.hbm, 121, rfl⟩
abbrev main_v68 : Ref sig .tc := ⟨.hbm, 122, rfl⟩
abbrev main_cst_16 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_cst_17 : Ref sig .tc := ⟨.hbm, 129, rfl⟩
abbrev main_v74 : Ref sig .tc := ⟨.hbm, 130, rfl⟩
abbrev main_cst_18 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_cst_19 : Ref sig .tc := ⟨.hbm, 136, rfl⟩
abbrev main_v79 : Ref sig .tc := ⟨.hbm, 137, rfl⟩

abbrev nD : Nat := 1
abbrev τ : Topo := Topo.v7x

variable {F : FTy → Type} [FloatOps F]

class Facts₀ : Prop where
  reducesTo_S4096x1024_S4096_d1 : S4096x1024.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x1024_0_1 : S4096x1.BroadcastsInDim S4096x1024 (![0, 1] : Fin 2 → Fin S4096x1024.rank)
  transposes_S4096x1024_S1024x4096_1_0 : S4096x1024.Transposes [1, 0] S1024x4096
  bcast_S_S4096x4096 : S_.BroadcastsInDim S4096x4096 (![] : Fin 0 → Fin S4096x4096.rank)
  bcast_S4096_S1x4096_1 : S4096.BroadcastsInDim S1x4096 (![1] : Fin 1 → Fin S1x4096.rank)
  bcast_S_S1x4096 : S_.BroadcastsInDim S1x4096 (![] : Fin 0 → Fin S1x4096.rank)
  bcast_S1x4096_S4096x4096_0_1 : S1x4096.BroadcastsInDim S4096x4096 (![0, 1] : Fin 2 → Fin S4096x4096.rank)
  bcast_S4096x1_S4096x4096_0_1 : S4096x1.BroadcastsInDim S4096x4096 (![0, 1] : Fin 2 → Fin S4096x4096.rank)
  reducesTo_S4096x4096_S4096_d1 : S4096x4096.ReducesTo [1] S4096
  bcast_S_S4096 : S_.BroadcastsInDim S4096 (![] : Fin 0 → Fin S4096.rank)
  reducesTo_S4096x4096_S_d0_1 : S4096x4096.ReducesTo [0, 1] S_
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.KernelRegion.lean ====
/-
  The run of the program around its one kernel launch.

  The program first computes, on the host, the two row-normalised matrices (the image one already multiplied by the
  exponential of the scale), launches the kernel on an 8 × 8 grid of 512 × 512 output tiles, and then computes the loss
  from the two matrices the kernel wrote. At grid point (i, j) the kernel reads row block i of the first matrix and row
  block j of the second, writes their product A_i · B_jᵀ into tile (i, j) of the first result and the transpose of that
  product into tile (j, i) of the second.

  This module states what every buffer holds when the kernel is entered (`V`), what the kernel leaves in each of its
  two output tiles at a grid point (`tileProd`, `tileProdT`), that the kernel body does exactly that, and the run of
  the whole program: it terminates without a fault, the four arguments end as they began, the two result matrices end
  as the tiles written back assemble them, and every later buffer ends as the later host operations compute it from those.
-/
import proofs.«131688_j36670430773286_1_alg».proof.Proof.KernelLaunch
import proofs.«131688_j36670430773286_1_alg».proof.Proof.Gen.Kernel.Skeleton
import proofs.«131688_j36670430773286_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Region

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before and after the launch -/

/-- The host operations after the launch, stretch by stretch (the label matrices, the two log-softmaxes, the four sums). -/
abbrev laterOps : List (List (HloOp τ sig (Elt F))) :=
  [hostOps1, hostOps1_1, hostOps1_2, hostOps1_3, hostOps1_4, hostOps1_5, hostOps1_6]

/-- The buffers the operations before the launch write, one each. -/
abbrev earlierWritten : List (Ref sig .tc) :=
  [main_v0, main_cst, main_v1, main_v2, main_v3, main_cst_0, main_v4, main_v5, main_v6, main_v7, main_v8, main_cst_1, main_v9, main_v10, main_v11, main_cst_2, main_v12, main_v13, main_v14, main_v15, main_v16, main_v17, main_v18, main_v19, main_v20]

/-- The buffers the operations after the launch write, one each. -/
abbrev laterWritten : List (Ref sig .tc) :=
  [main_v22, main_v23, main_cst_3, main_v24, main_v25, main_cst_4, main_cst_5, main_call0_v0, main_call0_v1, main_v26, main_v27, main_cst_6, main_v28, main_v29, main_v30, main_v31, main_call1_v0, main_call1_v1, main_call1_v2, main_v32, main_call2_cst, main_call2_v0, main_call2_cst_0, main_call2_v1, main_call2_v2, main_call2_v3, main_call2_v4, main_call2_v5, main_call2_v6, main_call2_cst_1, main_call2_v7, main_call2_v8, main_call2_v9, main_call2_v10, main_v33, main_call3_cst, main_call3_v0, main_call3_cst_0, main_call3_v1, main_call3_v2, main_call3_v3, main_call3_v4, main_call3_v5, main_call3_v6, main_call3_cst_1, main_call3_v7, main_call3_v8, main_call3_v9, main_call3_v10, main_v34, main_cst_7, main_v35, main_v36, main_v37, main_v38, main_cst_8, main_v39, main_cst_9, main_v40, main_v41, main_v42, main_v43, main_v44, main_v45, main_cst_10, main_v46, main_v47, main_v48, main_v49, main_v50, main_v51, main_v52, main_v53, main_cst_11, main_v54, main_cst_12, main_v55, main_v56, main_v57, main_v58, main_v59, main_cst_13, main_v60, main_cst_14, main_v61, main_v62, main_v63, main_v64, main_cst_15, main_v65, main_cst_16, main_v66, main_v67, main_v68, main_v69, main_v70, main_cst_17, main_v71, main_cst_18, main_v72, main_v73, main_v74, main_v75, main_cst_19, main_v76]

/-- What each buffer of core `c` holds when the kernel is launched: the launch contents run through the earlier operations. -/
abbrev V0 (c : Dev nD) : Valuation τ sig (Elt F) := StableHlo.after (List.flatten [hostOps0]) (fun b => m (c, b))
/-- The same, read at a TensorCore buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor

/-- The program is the earlier operations, the launch, the later operations: it reduces to the launch continued by the
    later ones, from the buffers as the earlier ones leave them. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((laterOps (F := F)).map StableHlo.seq)) :=
  Pipeline.hmain_around cfgs 0 defs₀ 𝒱₀ m main [hostOps0] laterOps (by simp only [List.Forall]; exact hostOps0_sub)
    (by simp only [List.Forall]; exact hostOps0_fresh) main_chain

/-- Every later operation touches unscoped TensorCore buffers only. -/
theorem later_sub : ∀ ops ∈ (laterOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)

/-- None of them allocates. -/
theorem later_fresh : ∀ ops ∈ (laterOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop

/-- Each earlier operation writes one buffer of `earlierWritten`. -/
theorem earlier_writes : (List.flatten [hostOps0] : List (HloOp τ sig (Elt F))).Forall fun op =>
    op.writes ⊆ (earlierWritten.map (Proc.devRef (τ := τ) .tc)).toFinset := by
  simp only [hostOps0, List.flatten_cons, List.flatten_nil, List.append_nil, List.cons_append, List.nil_append, List.Forall,
    StableHlo.nullary_writes, StableHlo.unary_writes, StableHlo.binary_writes, StableHlo.ternary_writes,
    Finset.singleton_subset_iff, List.mem_toFinset]
  repeat' apply And.intro
  all_goals exact List.mem_map_of_mem (by decide)

/-- Each later operation writes one buffer of `laterWritten`. -/
theorem later_writes : ((laterOps (F := F)).flatten).Forall fun op =>
    op.writes ⊆ (laterWritten.map (Proc.devRef (τ := τ) .tc)).toFinset := by
  simp only [hostOps1, hostOps1_1, hostOps1_2, hostOps1_3, hostOps1_4, hostOps1_5, hostOps1_6,
    List.flatten_cons, List.flatten_nil, List.append_nil, List.cons_append, List.nil_append, List.Forall,
    StableHlo.nullary_writes, StableHlo.unary_writes, StableHlo.binary_writes, StableHlo.ternary_writes,
    Finset.singleton_subset_iff, List.mem_toFinset]
  repeat' apply And.intro
  all_goals exact List.mem_map_of_mem (by decide)

/-- A buffer outside `laterWritten` is written by no later operation. -/
theorem later_not_written (b : Ref sig .tc) (hb : b ∉ laterWritten) :
    ∀ ops ∈ (laterOps : List (List (HloOp τ sig (Elt F)))), ∀ op ∈ ops, Proc.devRef (τ := τ) .tc b ∉ op.writes := by
  intro ops hops op hop hw
  have hmem : op ∈ (laterOps (F := F)).flatten := List.mem_flatten.mpr ⟨ops, hops, hop⟩
  obtain ⟨y, hy, he⟩ := List.mem_map.mp (List.mem_toFinset.mp ((List.forall_iff_forall_mem.mp later_writes) op hmem hw))
  exact hb (Proc.devRef_injective _ he ▸ hy)

/-- The later operations write neither matrix the kernel reads or writes. -/
theorem later_keeps : ∀ ops ∈ (laterOps : List (List (HloOp τ sig (Elt F)))), ∀ op ∈ ops,
    ∀ w, Proc.devRef .tc (Pipeline.arrRef spec0 w) ∉ op.writes := by
  intro ops hops op hop w
  exact later_not_written (Pipeline.arrRef spec0 w) ((by decide : ∀ w : Fin 4, Pipeline.arrRef spec0 w ∉ laterWritten) w) ops hops op hop

/-- An argument is written by no earlier operation: the kernel finds it as launched. -/
theorem V_of_not_written (c : Dev nD) (b : Ref sig .tc) (hb : b ∉ earlierWritten) : V m c b = m ((c : Thread nD τ).loc b) :=
  StableHlo.after_of_writes_sub _ _ earlier_writes hb

/-- A buffer that is neither one of the kernel's matrices nor written later ends as the kernel's launch found it. -/
theorem W_of_not_written (dats : (p : Fin _) → (c : Dev nD) → Dat τ (Elt F) Unit ℕ (UR sig nD τ) ℕ (cfgs p) c) (c : Dev nD)
    (b : Ref sig .tc) (hb : b ∉ laterWritten) (hw : ∀ w, Pipeline.arrRef spec0 w ≠ b) :
    Pipeline.afterTail₀ cfgs dats 0 (V0 m) laterOps c b = V m c b := by
  unfold Pipeline.afterTail₀
  rw [StableHlo.after_of_writes_sub _ _ later_writes hb, Pipeline.withArrays_of_ne _ c (V0 m c) _ b hw]

/-! ## The kernel's blocks -/

/-- Block `t` of the kernel's matrix `w`, read off the matrix as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The staging buffer of the first input holds its row block at every grid point, fetched there or kept from the point
    before (its block index does not depend on the column coordinate). -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the second input. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What the kernel leaves in its two output tiles -/

/-- The whole 512 × 1024 input tile. -/
abbrev rIn : Rect S512x1024 := Rect.unit (s := S512x1024) ![0, 0] S512x1024.size inb_S512x1024_S512x1024_0_0
/-- The whole 512 × 512 output tile. -/
abbrev rOut : Rect S512x512 := Rect.unit (s := S512x512) ![0, 0] S512x512.size inb_S512x512_S512x512_0_0

/-- The first output tile after the body: the product of the two input tiles along their long axis. -/
def tileProd (x0 x1 : Vec F S512x1024 .bf16) : Vec F S512x512 .f32 :=
  View.canon [⟨rOut, k0_pay1 (View.ld x0 rIn) (View.ld x1 rIn)⟩]
/-- The second output tile after the body: the transpose of that product. -/
def tileProdT (x0 x1 : Vec F S512x1024 .bf16) : Vec F S512x512 .f32 :=
  View.canon [⟨rOut, k0_pay2 (View.ld x0 rIn) (View.ld x1 rIn)⟩]

/-- One store of the whole tile covers the tile. -/
theorem cover_out (p0 : Vec F S512x512 .f32) (y : S512x512.Idx) :
    ∃ pc ∈ ([⟨rOut, p0⟩] : List (View.Piece (Elt F) S512x512 .f32)), y ∈ pc.1.set :=
  View.cover_of_tiled [⟨rOut, p0⟩] S512x512.size (by rfl) y

/-! ## The kernel body -/

set_option maxHeartbeats 4000000 in
/-- The body on whole staging buffers, the inputs holding `x0` and `x1` and the outputs anything, ends with the inputs
    as they were, the first output at the tiles' product and the second at its transpose. -/
theorem sound_kernel (c : Dev nD) (E : Set ℕ) (i : grid0.Coords)
    (arg2 : Memref sig .tc .vmem S512x1024 .bf16) (harg2 : arg2.IsWhole) (arg3 : Memref sig .tc .vmem S512x1024 .bf16) (harg3 : arg3.IsWhole)
    (arg4 : Memref sig .tc .vmem S512x512 .f32) (harg4 : arg4.IsWhole) (arg5 : Memref sig .tc .vmem S512x512 .f32) (harg5 : arg5.IsWhole)
    (x0 x1 : Vec F S512x1024 .bf16) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (tileProd x0 x1) ∗ owns (c : Thread nD τ) arg5 fullShare (tileProdT x0 x1)) -∗ K ⟨⟩))
      ⊢ wp frame (wpE (defs₀ (F := F)) Variants.none c none) E (cc0__matmul_nt_kernel i arg2 harg2 arg3 harg3 arg4 harg4 arg5 harg5) K := by
  simp only [cc0__matmul_nt_kernel_eq_skeleton]; unfold cc0__matmul_nt_kernel_skel
  unfold owns
  iintro ⟨⟨%f0, %hf0, H0⟩, ⟨%f1, %hf1, H1⟩, ⟨%d2, %f2, -, H2⟩, ⟨%d3, %f3, -, H3⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover_out _)
  · iexists _; isplitr
    swap; · iexact H3
    ipureintro
    exact View.read_writes_eq_canon _ _ _ (cover_out _)

/-! ## The launch's proof data -/

/-- On core `c`: the matrices as the launch finds them; after the body at point `t` each input buffer at its block and
    each output buffer at the product of the two blocks (or its transpose); nothing else tracked, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => tileProd (iblk m c 0 t) (iblk m c 1 t)
    | ⟨3, _⟩ => tileProdT (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = tileProd (iblk m c 0 t) (iblk m c 1 t) := by dsimp only [dats]
theorem after3 (c : Dev nD) (t : Fin cfg0.N) : (dats m 0 c).after 3 t = tileProdT (iblk m c 0 t) (iblk m c 1 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d

/-! ## The body at a grid point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of the program terminates without a fault; at the
    end the kernel's four matrices hold what the tiles written back assemble, and every other unscoped buffer what the
    later operations compute from those and from the buffers as the launch found them. -/
theorem run_main : θ_run defs (onTc (τ := τ) (main (F := F))) (s₀ m ρ) (Pipeline.FramePost cfgs (dats m) 0 (Pipeline.afterTail₀ cfgs (dats m) 0 (V0 m) laterOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := laterOps) (hsub := later_sub) (hfresh := later_fresh) (hkeep := later_keeps)
    (hmain := hmain m Variants.none) (hA := A_eq m) (hΦ := fun _ _ => rfl)

/-- What an argument holds at the end: its launch contents. -/
theorem arg_kept (c : Dev nD) (b : Ref sig .tc) (hb : b ∉ earlierWritten) (hb' : b ∉ laterWritten) (hw : ∀ w, Pipeline.arrRef spec0 w ≠ b) :
    Pipeline.afterTail₀ cfgs (dats m) 0 (V0 m) laterOps c b = m ((c : Thread nD τ).loc b) :=
  (W_of_not_written m (dats m) c b hb' hw).trans (V_of_not_written m c b hb)

/-- The program runs to the end and leaves its four arguments as they were; the result buffer ends at what the later
    operations compute (`Pipeline.afterTail₀`). -/
theorem run_result : θ_run defs (onTc (τ := τ) (main (F := F))) ⟨m, fun _ => 0, ρ⟩ (fun r => ∀ c : Dev nD,
      r.2.mem ((c.tc : Thread nD τ).loc main_v76) = Pipeline.afterTail₀ cfgs (dats m) 0 (V0 m) laterOps c main_v76
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c).2 main_v76 (Pipeline.mem_restRefs_of main_v76 (by decide) (by decide)),
     ((h c).2 main_arg0 (Pipeline.mem_restRefs_of main_arg0 (by decide) (by decide))).trans (arg_kept m c main_arg0 (by decide) (by decide) (by decide)),
     ((h c).2 main_arg1 (Pipeline.mem_restRefs_of main_arg1 (by decide) (by decide))).trans (arg_kept m c main_arg1 (by decide) (by decide) (by decide)),
     ((h c).2 main_arg2 (Pipeline.mem_restRefs_of main_arg2 (by decide) (by decide))).trans (arg_kept m c main_arg2 (by decide) (by decide) (by decide)),
     ((h c).2 main_arg3 (Pipeline.mem_restRefs_of main_arg3 (by decide) (by decide))).trans (arg_kept m c main_arg3 (by decide) (by decide) (by decide))⟩)
    (run_main m ρ)

/-- The frame: the program runs to the end and leaves its four arguments as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_result m ρ)

end Cert.Kernel.Region

end
-- ==== Proof.KernelIdealRegion.lean ====
/-
  The run of the program around its one kernel launch.

  The program first computes, on the host, the two row-normalised matrices (the image one already multiplied by the
  exponential of the scale), launches the kernel on an 8 × 8 grid of 512 × 512 output tiles, and then computes the loss
  from the two matrices the kernel wrote. At grid point (i, j) the kernel reads row block i of the first matrix and row
  block j of the second, writes their product A_i · B_jᵀ into tile (i, j) of the first result and the transpose of that
  product into tile (j, i) of the second.

  This module states what every buffer holds when the kernel is entered (`V`), what the kernel leaves in each of its
  two output tiles at a grid point (`tileProd`, `tileProdT`), that the kernel body does exactly that, and the run of
  the whole program: it terminates without a fault, the four arguments end as they began, the two result matrices end
  as the tiles written back assemble them, and every later buffer ends as the later host operations compute it from those.
-/
import proofs.«131688_j36670430773286_1_alg».proof.Proof.KernelIdealLaunch
import proofs.«131688_j36670430773286_1_alg».proof.Proof.Gen.KernelIdeal.Skeleton
import proofs.«131688_j36670430773286_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Region

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before and after the launch -/

/-- The host operations after the launch, stretch by stretch (the label matrices, the two log-softmaxes, the four sums). -/
abbrev laterOps : List (List (HloOp τ sig (Elt F))) :=
  [hostOps1, hostOps1_1, hostOps1_2, hostOps1_3, hostOps1_4, hostOps1_5, hostOps1_6]

/-- The buffers the operations before the launch write, one each. -/
abbrev earlierWritten : List (Ref sig .tc) :=
  [main_v0, main_cst, main_v1, main_v2, main_v3, main_cst_0, main_v4, main_v5, main_v6, main_v7, main_v8, main_cst_1, main_v9, main_v10, main_v11, main_cst_2, main_v12, main_v13, main_v14, main_v15, main_v16, main_v17, main_v18, main_v19, main_v20]

/-- The buffers the operations after the launch write, one each. -/
abbrev laterWritten : List (Ref sig .tc) :=
  [main_v22, main_v23, main_cst_3, main_v24, main_v25, main_cst_4, main_cst_5, main_call0_v0, main_call0_v1, main_v26, main_v27, main_cst_6, main_v28, main_v29, main_v30, main_v31, main_call1_v0, main_call1_v1, main_call1_v2, main_v32, main_call2_cst, main_call2_v0, main_call2_cst_0, main_call2_v1, main_call2_v2, main_call2_v3, main_call2_v4, main_call2_v5, main_call2_v6, main_call2_cst_1, main_call2_v7, main_call2_v8, main_call2_v9, main_call2_v10, main_v33, main_call3_cst, main_call3_v0, main_call3_cst_0, main_call3_v1, main_call3_v2, main_call3_v3, main_call3_v4, main_call3_v5, main_call3_v6, main_call3_cst_1, main_call3_v7, main_call3_v8, main_call3_v9, main_call3_v10, main_v34, main_cst_7, main_v35, main_v36, main_v37, main_v38, main_cst_8, main_v39, main_cst_9, main_v40, main_v41, main_v42, main_v43, main_v44, main_v45, main_cst_10, main_v46, main_v47, main_v48, main_v49, main_v50, main_v51, main_v52, main_v53, main_cst_11, main_v54, main_cst_12, main_v55, main_v56, main_v57, main_v58, main_v59, main_cst_13, main_v60, main_cst_14, main_v61, main_v62, main_v63, main_v64, main_cst_15, main_v65, main_cst_16, main_v66, main_v67, main_v68, main_v69, main_v70, main_cst_17, main_v71, main_cst_18, main_v72, main_v73, main_v74, main_v75, main_cst_19, main_v76]

/-- What each buffer of core `c` holds when the kernel is launched: the launch contents run through the earlier operations. -/
abbrev V0 (c : Dev nD) : Valuation τ sig (Elt F) := StableHlo.after (List.flatten [hostOps0]) (fun b => m (c, b))
/-- The same, read at a TensorCore buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor

/-- The program is the earlier operations, the launch, the later operations: it reduces to the launch continued by the
    later ones, from the buffers as the earlier ones leave them. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((laterOps (F := F)).map StableHlo.seq)) :=
  Pipeline.hmain_around cfgs 0 defs₀ 𝒱₀ m main [hostOps0] laterOps (by simp only [List.Forall]; exact hostOps0_sub)
    (by simp only [List.Forall]; exact hostOps0_fresh) main_chain

/-- Every later operation touches unscoped TensorCore buffers only. -/
theorem later_sub : ∀ ops ∈ (laterOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)

/-- None of them allocates. -/
theorem later_fresh : ∀ ops ∈ (laterOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop

/-- Each earlier operation writes one buffer of `earlierWritten`. -/
theorem earlier_writes : (List.flatten [hostOps0] : List (HloOp τ sig (Elt F))).Forall fun op =>
    op.writes ⊆ (earlierWritten.map (Proc.devRef (τ := τ) .tc)).toFinset := by
  simp only [hostOps0, List.flatten_cons, List.flatten_nil, List.append_nil, List.cons_append, List.nil_append, List.Forall,
    StableHlo.nullary_writes, StableHlo.unary_writes, StableHlo.binary_writes, StableHlo.ternary_writes,
    Finset.singleton_subset_iff, List.mem_toFinset]
  repeat' apply And.intro
  all_goals exact List.mem_map_of_mem (by decide)

/-- Each later operation writes one buffer of `laterWritten`. -/
theorem later_writes : ((laterOps (F := F)).flatten).Forall fun op =>
    op.writes ⊆ (laterWritten.map (Proc.devRef (τ := τ) .tc)).toFinset := by
  simp only [hostOps1, hostOps1_1, hostOps1_2, hostOps1_3, hostOps1_4, hostOps1_5, hostOps1_6,
    List.flatten_cons, List.flatten_nil, List.append_nil, List.cons_append, List.nil_append, List.Forall,
    StableHlo.nullary_writes, StableHlo.unary_writes, StableHlo.binary_writes, StableHlo.ternary_writes,
    Finset.singleton_subset_iff, List.mem_toFinset]
  repeat' apply And.intro
  all_goals exact List.mem_map_of_mem (by decide)

/-- A buffer outside `laterWritten` is written by no later operation. -/
theorem later_not_written (b : Ref sig .tc) (hb : b ∉ laterWritten) :
    ∀ ops ∈ (laterOps : List (List (HloOp τ sig (Elt F)))), ∀ op ∈ ops, Proc.devRef (τ := τ) .tc b ∉ op.writes := by
  intro ops hops op hop hw
  have hmem : op ∈ (laterOps (F := F)).flatten := List.mem_flatten.mpr ⟨ops, hops, hop⟩
  obtain ⟨y, hy, he⟩ := List.mem_map.mp (List.mem_toFinset.mp ((List.forall_iff_forall_mem.mp later_writes) op hmem hw))
  exact hb (Proc.devRef_injective _ he ▸ hy)

/-- The later operations write neither matrix the kernel reads or writes. -/
theorem later_keeps : ∀ ops ∈ (laterOps : List (List (HloOp τ sig (Elt F)))), ∀ op ∈ ops,
    ∀ w, Proc.devRef .tc (Pipeline.arrRef spec0 w) ∉ op.writes := by
  intro ops hops op hop w
  exact later_not_written (Pipeline.arrRef spec0 w) ((by decide : ∀ w : Fin 4, Pipeline.arrRef spec0 w ∉ laterWritten) w) ops hops op hop

/-- An argument is written by no earlier operation: the kernel finds it as launched. -/
theorem V_of_not_written (c : Dev nD) (b : Ref sig .tc) (hb : b ∉ earlierWritten) : V m c b = m ((c : Thread nD τ).loc b) :=
  StableHlo.after_of_writes_sub _ _ earlier_writes hb

/-- A buffer that is neither one of the kernel's matrices nor written later ends as the kernel's launch found it. -/
theorem W_of_not_written (dats : (p : Fin _) → (c : Dev nD) → Dat τ (Elt F) Unit ℕ (UR sig nD τ) ℕ (cfgs p) c) (c : Dev nD)
    (b : Ref sig .tc) (hb : b ∉ laterWritten) (hw : ∀ w, Pipeline.arrRef spec0 w ≠ b) :
    Pipeline.afterTail₀ cfgs dats 0 (V0 m) laterOps c b = V m c b := by
  unfold Pipeline.afterTail₀
  rw [StableHlo.after_of_writes_sub _ _ later_writes hb, Pipeline.withArrays_of_ne _ c (V0 m c) _ b hw]

/-! ## The kernel's blocks -/

/-- Block `t` of the kernel's matrix `w`, read off the matrix as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The staging buffer of the first input holds its row block at every grid point, fetched there or kept from the point
    before (its block index does not depend on the column coordinate). -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the second input. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What the kernel leaves in its two output tiles -/

/-- The whole 512 × 1024 input tile. -/
abbrev rIn : Rect S512x1024 := Rect.unit (s := S512x1024) ![0, 0] S512x1024.size inb_S512x1024_S512x1024_0_0
/-- The whole 512 × 512 output tile. -/
abbrev rOut : Rect S512x512 := Rect.unit (s := S512x512) ![0, 0] S512x512.size inb_S512x512_S512x512_0_0

/-- The first output tile after the body: the product of the two input tiles along their long axis. -/
def tileProd (x0 x1 : Vec F S512x1024 .bf16) : Vec F S512x512 .f32 :=
  View.canon [⟨rOut, k0_pay1 (View.ld x0 rIn) (View.ld x1 rIn)⟩]
/-- The second output tile after the body: the transpose of that product. -/
def tileProdT (x0 x1 : Vec F S512x1024 .bf16) : Vec F S512x512 .f32 :=
  View.canon [⟨rOut, k0_pay2 (View.ld x0 rIn) (View.ld x1 rIn)⟩]

/-- One store of the whole tile covers the tile. -/
theorem cover_out (p0 : Vec F S512x512 .f32) (y : S512x512.Idx) :
    ∃ pc ∈ ([⟨rOut, p0⟩] : List (View.Piece (Elt F) S512x512 .f32)), y ∈ pc.1.set :=
  View.cover_of_tiled [⟨rOut, p0⟩] S512x512.size (by rfl) y

/-! ## The kernel body -/

set_option maxHeartbeats 4000000 in
/-- The body on whole staging buffers, the inputs holding `x0` and `x1` and the outputs anything, ends with the inputs
    as they were, the first output at the tiles' product and the second at its transpose. -/
theorem sound_kernel (c : Dev nD) (E : Set ℕ) (i : grid0.Coords)
    (arg2 : Memref sig .tc .vmem S512x1024 .bf16) (harg2 : arg2.IsWhole) (arg3 : Memref sig .tc .vmem S512x1024 .bf16) (harg3 : arg3.IsWhole)
    (arg4 : Memref sig .tc .vmem S512x512 .f32) (harg4 : arg4.IsWhole) (arg5 : Memref sig .tc .vmem S512x512 .f32) (harg5 : arg5.IsWhole)
    (x0 x1 : Vec F S512x1024 .bf16) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (tileProd x0 x1) ∗ owns (c : Thread nD τ) arg5 fullShare (tileProdT x0 x1)) -∗ K ⟨⟩))
      ⊢ wp frame (wpE (defs₀ (F := F)) Variants.none c none) E (cc0__matmul_nt_kernel i arg2 harg2 arg3 harg3 arg4 harg4 arg5 harg5) K := by
  simp only [cc0__matmul_nt_kernel_eq_skeleton]; unfold cc0__matmul_nt_kernel_skel
  unfold owns
  iintro ⟨⟨%f0, %hf0, H0⟩, ⟨%f1, %hf1, H1⟩, ⟨%d2, %f2, -, H2⟩, ⟨%d3, %f3, -, H3⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover_out _)
  · iexists _; isplitr
    swap; · iexact H3
    ipureintro
    exact View.read_writes_eq_canon _ _ _ (cover_out _)

/-! ## The launch's proof data -/

/-- On core `c`: the matrices as the launch finds them; after the body at point `t` each input buffer at its block and
    each output buffer at the product of the two blocks (or its transpose); nothing else tracked, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => tileProd (iblk m c 0 t) (iblk m c 1 t)
    | ⟨3, _⟩ => tileProdT (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = tileProd (iblk m c 0 t) (iblk m c 1 t) := by dsimp only [dats]
theorem after3 (c : Dev nD) (t : Fin cfg0.N) : (dats m 0 c).after 3 t = tileProdT (iblk m c 0 t) (iblk m c 1 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d

/-! ## The body at a grid point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of the program terminates without a fault; at the
    end the kernel's four matrices hold what the tiles written back assemble, and every other unscoped buffer what the
    later operations compute from those and from the buffers as the launch found them. -/
theorem run_main : θ_run defs (onTc (τ := τ) (main (F := F))) (s₀ m ρ) (Pipeline.FramePost cfgs (dats m) 0 (Pipeline.afterTail₀ cfgs (dats m) 0 (V0 m) laterOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := laterOps) (hsub := later_sub) (hfresh := later_fresh) (hkeep := later_keeps)
    (hmain := hmain m Variants.none) (hA := A_eq m) (hΦ := fun _ _ => rfl)

/-- What an argument holds at the end: its launch contents. -/
theorem arg_kept (c : Dev nD) (b : Ref sig .tc) (hb : b ∉ earlierWritten) (hb' : b ∉ laterWritten) (hw : ∀ w, Pipeline.arrRef spec0 w ≠ b) :
    Pipeline.afterTail₀ cfgs (dats m) 0 (V0 m) laterOps c b = m ((c : Thread nD τ).loc b) :=
  (W_of_not_written m (dats m) c b hb' hw).trans (V_of_not_written m c b hb)

/-- The program runs to the end and leaves its four arguments as they were; the result buffer ends at what the later
    operations compute (`Pipeline.afterTail₀`). -/
theorem run_result : θ_run defs (onTc (τ := τ) (main (F := F))) ⟨m, fun _ => 0, ρ⟩ (fun r => ∀ c : Dev nD,
      r.2.mem ((c.tc : Thread nD τ).loc main_v76) = Pipeline.afterTail₀ cfgs (dats m) 0 (V0 m) laterOps c main_v76
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c).2 main_v76 (Pipeline.mem_restRefs_of main_v76 (by decide) (by decide)),
     ((h c).2 main_arg0 (Pipeline.mem_restRefs_of main_arg0 (by decide) (by decide))).trans (arg_kept m c main_arg0 (by decide) (by decide) (by decide)),
     ((h c).2 main_arg1 (Pipeline.mem_restRefs_of main_arg1 (by decide) (by decide))).trans (arg_kept m c main_arg1 (by decide) (by decide) (by decide)),
     ((h c).2 main_arg2 (Pipeline.mem_restRefs_of main_arg2 (by decide) (by decide))).trans (arg_kept m c main_arg2 (by decide) (by decide) (by decide)),
     ((h c).2 main_arg3 (Pipeline.mem_restRefs_of main_arg3 (by decide) (by decide))).trans (arg_kept m c main_arg3 (by decide) (by decide) (by decide))⟩)
    (run_main m ρ)

/-- The frame: the program runs to the end and leaves its four arguments as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_result m ρ)

end Cert.KernelIdeal.Region

end
-- ==== Proof.Tail.lean ====
/-
  The loss as one function of the two logit matrices and the labels.

  After the two 4096 × 4096 logit matrices `L1` (image to table) and `L2` (table to image) are known, both programs
  compute the same thing from them and from the integer labels, in three steps: the same-class indicator matrix of the
  labels (`labelMatrix`: entry (i, j) is 1 where label j is 0 and 0 elsewhere when label i is 0, and label j itself
  otherwise); the row-wise log-softmax of a matrix (`logSoftmax`: subtract the row maximum, then the logarithm of the
  row's sum of exponentials); and the combination (`combine`): the row-normalised indicator matrix is soft-maxed into
  `q`, the four Kullback–Leibler sums `Σ t · (log t − log p) / 4096` between `q` and the two log-softmaxed matrices
  are taken in both directions, and a quarter of their sum is the loss. Each definition has one line per operation, in
  the order the operations are carried out.
-/
import proofs.«131688_j36670430773286_1_alg».proof.Proof.Gen.KernelIdeal

noncomputable section

namespace Cert.KernelIdeal.Loss

open Idealize.ShloMosaic Cert.KernelIdeal Cert.KernelIdeal.Gen

variable {F : FTy → Type} [FloatOps F]

/-- The same-class indicator matrix of the labels. -/
def labelMatrix (lab : (⟨S4096, .i32⟩ : BufTy).Contents (Elt F)) : (⟨S4096x4096, .f32⟩ : BufTy).Contents (Elt F) :=
  have v22 := (sitofp .f32 : (⟨S4096, .i32⟩ : BufTy).Contents (Elt F) → (⟨S4096, .f32⟩ : BufTy).Contents (Elt F)) lab
  have v23 := (broadcastInDim S1x4096 ![1] bcast_S4096_S1x4096_1 : (⟨S4096, .f32⟩ : BufTy).Contents (Elt F) → (⟨S1x4096, .f32⟩ : BufTy).Contents (Elt F)) v22
  have cst_3 : (⟨S_, .f32⟩ : BufTy).Contents (Elt F) := constant S_ .f32 0x00000000#32
  have v24 := (broadcastInDim S1x4096 ![] bcast_S_S1x4096 : (⟨S_, .f32⟩ : BufTy).Contents (Elt F) → (⟨S1x4096, .f32⟩ : BufTy).Contents (Elt F)) cst_3
  have v25 := (cmpf .oeq : (⟨S1x4096, .f32⟩ : BufTy).Contents (Elt F) → (⟨S1x4096, .f32⟩ : BufTy).Contents (Elt F) → (⟨S1x4096, .i1⟩ : BufTy).Contents (Elt F)) v23 v24
  have cst_4 : (⟨S_, .f32⟩ : BufTy).Contents (Elt F) := constant S_ .f32 0x3F800000#32
  have cst_5 : (⟨S_, .f32⟩ : BufTy).Contents (Elt F) := constant S_ .f32 0x00000000#32
  have call0_v0 : (⟨S1x4096, .f32⟩ : BufTy).Contents (Elt F) := (broadcastInDim S1x4096 ![] bcast_S_S1x4096) cst_4
  have call0_v1 : (⟨S1x4096, .f32⟩ : BufTy).Contents (Elt F) := (broadcastInDim S1x4096 ![] bcast_S_S1x4096) cst_5
  have v26 : (⟨S1x4096, .f32⟩ : BufTy).Contents (Elt F) := select v25 call0_v0 call0_v1
  have v27 := (broadcastInDim S4096x1 ![0] bcast_S4096_S4096x1_0 : (⟨S4096, .f32⟩ : BufTy).Contents (Elt F) → (⟨S4096x1, .f32⟩ : BufTy).Contents (Elt F)) v22
  have cst_6 : (⟨S_, .f32⟩ : BufTy).Contents (Elt F) := constant S_ .f32 0x00000000#32
  have v28 := (broadcastInDim S4096x1 ![] bcast_S_S4096x1 : (⟨S_, .f32⟩ : BufTy).Contents (Elt F) → (⟨S4096x1, .f32⟩ : BufTy).Contents (Elt F)) cst_6
  have v29 := (cmpf .oeq : (⟨S4096x1, .f32⟩ : BufTy).Contents (Elt F) → (⟨S4096x1, .f32⟩ : BufTy).Contents (Elt F) → (⟨S4096x1, .i1⟩ : BufTy).Contents (Elt F)) v27 v28
  have v30 := (broadcastInDim S1x4096 ![1] bcast_S4096_S1x4096_1 : (⟨S4096, .f32⟩ : BufTy).Contents (Elt F) → (⟨S1x4096, .f32⟩ : BufTy).Contents (Elt F)) v22
  have v31 := (broadcastInDim S4096x4096 ![0, 1] bcast_S1x4096_S4096x4096_0_1 : (⟨S1x4096, .f32⟩ : BufTy).Contents (Elt F) → (⟨S4096x4096, .f32⟩ : BufTy).Contents (Elt F)) v30
  have call1_v0 : (⟨S1x4096, .f32⟩ : BufTy).Contents (Elt F) := id v26
  have call1_v1 : (⟨S4096x4096, .i1⟩ : BufTy).Contents (Elt F) := (broadcastInDim S4096x4096 ![0, 1] bcast_S4096x1_S4096x4096_0_1) v29
  have call1_v2 : (⟨S4096x4096, .f32⟩ : BufTy).Contents (Elt F) := (broadcastInDim S4096x4096 ![0, 1] bcast_S1x4096_S4096x4096_0_1) call1_v0
  have v32 : (⟨S4096x4096, .f32⟩ : BufTy).Contents (Elt F) := select call1_v1 call1_v2 v31
  v32

/-- The row-wise log-softmax of a matrix. -/
def logSoftmax (L : (⟨S4096x4096, .f32⟩ : BufTy).Contents (Elt F)) : (⟨S4096x4096, .f32⟩ : BufTy).Contents (Elt F) :=
  have call2_cst : (⟨S_, .f32⟩ : BufTy).Contents (Elt F) := constant S_ .f32 0xFF800000#32
  have call2_v0 : (⟨S4096, .f32⟩ : BufTy).Contents (Elt F) := Host.reduce FloatOps.maximumf L call2_cst reducesTo_S4096x4096_S4096_d1 h_S_
  have call2_cst_0 : (⟨S_, .f32⟩ : BufTy).Contents (Elt F) := constant S_ .f32 0xFF800000#32
  have call2_v1 : (⟨S4096, .f32⟩ : BufTy).Contents (Elt F) := (broadcastInDim S4096 ![] bcast_S_S4096) call2_cst_0
  have call2_v2 : (⟨S4096, .f32⟩ : BufTy).Contents (Elt F) := maximumf call2_v1 call2_v0
  have call2_v3 : (⟨S4096x1, .f32⟩ : BufTy).Contents (Elt F) := (broadcastInDim S4096x1 ![0] bcast_S4096_S4096x1_0) call2_v2
  have call2_v4 : (⟨S4096x4096, .f32⟩ : BufTy).Contents (Elt F) := (broadcastInDim S4096x4096 ![0, 1] bcast_S4096x1_S4096x4096_0_1) call2_v3
  have call2_v5 : (⟨S4096x4096, .f32⟩ : BufTy).Contents (Elt F) := subf L call2_v4
  have call2_v6 : (⟨S4096x4096, .f32⟩ : BufTy).Contents (Elt F) := Host.exp call2_v5
  have call2_cst_1 : (⟨S_, .f32⟩ : BufTy).Contents (Elt F) := constant S_ .f32 0x00000000#32
  have call2_v7 : (⟨S4096, .f32⟩ : BufTy).Contents (Elt F) := Host.reduceAdd call2_v6 call2_cst_1 reducesTo_S4096x4096_S4096_d1 h_S_
  have call2_v8 : (⟨S4096x1, .f32⟩ : BufTy).Contents (Elt F) := (broadcastInDim S4096x1 ![0] bcast_S4096_S4096x1_0) call2_v7
  have call2_v9 : (⟨S4096x1, .f32⟩ : BufTy).Contents (Elt F) := Host.log call2_v8
  have call2_v10 : (⟨S4096x4096, .f32⟩ : BufTy).Contents (Elt F) := (broadcastInDim S4096x4096 ![0, 1] bcast_S4096x1_S4096x4096_0_1) call2_v9
  have v33 : (⟨S4096x4096, .f32⟩ : BufTy).Contents (Elt F) := subf call2_v5 call2_v10
  v33

/-- A quarter of the sum of the four divergences between the label distribution of `Q` and the two log-softmaxed matrices. -/
def combine (Q P1 P2 : (⟨S4096x4096, .f32⟩ : BufTy).Contents (Elt F)) : (⟨S_, .f32⟩ : BufTy).Contents (Elt F) :=
  have cst_7 : (⟨S_, .f32⟩ : BufTy).Contents (Elt F) := constant S_ .f32 0x00000000#32
  have v35 : (⟨S4096, .f32⟩ : BufTy).Contents (Elt F) := Host.reduceAdd Q cst_7 reducesTo_S4096x4096_S4096_d1 h_S_
  have v36 := (broadcastInDim S4096x1 ![0] bcast_S4096_S4096x1_0 : (⟨S4096, .f32⟩ : BufTy).Contents (Elt F) → (⟨S4096x1, .f32⟩ : BufTy).Contents (Elt F)) v35
  have v37 := (broadcastInDim S4096x4096 ![0, 1] bcast_S4096x1_S4096x4096_0_1 : (⟨S4096x1, .f32⟩ : BufTy).Contents (Elt F) → (⟨S4096x4096, .f32⟩ : BufTy).Contents (Elt F)) v36
  have v38 := (Host.divf : (⟨S4096x4096, .f32⟩ : BufTy).Contents (Elt F) → (⟨S4096x4096, .f32⟩ : BufTy).Contents (Elt F) → (⟨S4096x4096, .f32⟩ : BufTy).Contents (Elt F)) Q v37
  have cst_8 : (⟨S_, .f32⟩ : BufTy).Contents (Elt F) := constant S_ .f32 0xFF800000#32
  have v39 : (⟨S4096, .f32⟩ : BufTy).Contents (Elt F) := Host.reduce FloatOps.maximumf v38 cst_8 reducesTo_S4096x4096_S4096_d1 h_S_
  have cst_9 : (⟨S_, .f32⟩ : BufTy).Contents (Elt F) := constant S_ .f32 0xFF800000#32
  have v40 := (broadcastInDim S4096 ![] bcast_S_S4096 : (⟨S_, .f32⟩ : BufTy).Contents (Elt F) → (⟨S4096, .f32⟩ : BufTy).Contents (Elt F)) cst_9
  have v41 := (maximumf : (⟨S4096, .f32⟩ : BufTy).Contents (Elt F) → (⟨S4096, .f32⟩ : BufTy).Contents (Elt F) → (⟨S4096, .f32⟩ : BufTy).Contents (Elt F)) v40 v39
  have v42 := (broadcastInDim S4096x1 ![0] bcast_S4096_S4096x1_0 : (⟨S4096, .f32⟩ : BufTy).Contents (Elt F) → (⟨S4096x1, .f32⟩ : BufTy).Contents (Elt F)) v41
  have v43 := (broadcastInDim S4096x4096 ![0, 1] bcast_S4096x1_S4096x4096_0_1 : (⟨S4096x1, .f32⟩ : BufTy).Contents (Elt F) → (⟨S4096x4096, .f32⟩ : BufTy).Contents (Elt F)) v42
  have v44 := (subf : (⟨S4096x4096, .f32⟩ : BufTy).Contents (Elt F) → (⟨S4096x4096, .f32⟩ : BufTy).Contents (Elt F) → (⟨S4096x4096, .f32⟩ : BufTy).Contents (Elt F)) v38 v43
  have v45 := (Host.exp : (⟨S4096x4096, .f32⟩ : BufTy).Contents (Elt F) → (⟨S4096x4096, .f32⟩ : BufTy).Contents (Elt F)) v44
  have cst_10 : (⟨S_, .f32⟩ : BufTy).Contents (Elt F) := constant S_ .f32 0x00000000#32
  have v46 : (⟨S4096, .f32⟩ : BufTy).Contents (Elt F) := Host.reduceAdd v45 cst_10 reducesTo_S4096x4096_S4096_d1 h_S_
  have v47 := (broadcastInDim S4096x1 ![0] bcast_S4096_S4096x1_0 : (⟨S4096, .f32⟩ : BufTy).Contents (Elt F) → (⟨S4096x1, .f32⟩ : BufTy).Contents (Elt F)) v46
  have v48 := (broadcastInDim S4096x4096 ![0, 1] bcast_S4096x1_S4096x4096_0_1 : (⟨S4096x1, .f32⟩ : BufTy).Contents (Elt F) → (⟨S4096x4096, .f32⟩ : BufTy).Contents (Elt F)) v47
  have v49 := (Host.divf : (⟨S4096x4096, .f32⟩ : BufTy).Contents (Elt F) → (⟨S4096x4096, .f32⟩ : BufTy).Contents (Elt F) → (⟨S4096x4096, .f32⟩ : BufTy).Contents (Elt F)) v45 v48
  have v50 := (Host.log : (⟨S4096x4096, .f32⟩ : BufTy).Contents (Elt F) → (⟨S4096x4096, .f32⟩ : BufTy).Contents (Elt F)) v49
  have v51 := (Host.log : (⟨S4096x4096, .f32⟩ : BufTy).Contents (Elt F) → (⟨S4096x4096, .f32⟩ : BufTy).Contents (Elt F)) v49
  have v52 := (subf : (⟨S4096x4096, .f32⟩ : BufTy).Contents (Elt F) → (⟨S4096x4096, .f32⟩ : BufTy).Contents (Elt F) → (⟨S4096x4096, .f32⟩ : BufTy).Contents (Elt F)) v51 P1
  have v53 := (mulf : (⟨S4096x4096, .f32⟩ : BufTy).Contents (Elt F) → (⟨S4096x4096, .f32⟩ : BufTy).Contents (Elt F) → (⟨S4096x4096, .f32⟩ : BufTy).Contents (Elt F)) v49 v52
  have cst_11 : (⟨S_, .f32⟩ : BufTy).Contents (Elt F) := constant S_ .f32 0x00000000#32
  have v54 : (⟨S_, .f32⟩ : BufTy).Contents (Elt F) := Host.reduceAdd v53 cst_11 reducesTo_S4096x4096_S_d0_1 h_S_
  have cst_12 : (⟨S_, .f32⟩ : BufTy).Contents (Elt F) := constant S_ .f32 0x45800000#32
  have v55 := (Host.divf : (⟨S_, .f32⟩ : BufTy).Contents (Elt F) → (⟨S_, .f32⟩ : BufTy).Contents (Elt F) → (⟨S_, .f32⟩ : BufTy).Contents (Elt F)) v54 cst_12
  have v56 := (Host.exp : (⟨S4096x4096, .f32⟩ : BufTy).Contents (Elt F) → (⟨S4096x4096, .f32⟩ : BufTy).Contents (Elt F)) P1
  have v57 := (Host.log : (⟨S4096x4096, .f32⟩ : BufTy).Contents (Elt F) → (⟨S4096x4096, .f32⟩ : BufTy).Contents (Elt F)) v56
  have v58 := (subf : (⟨S4096x4096, .f32⟩ : BufTy).Contents (Elt F) → (⟨S4096x4096, .f32⟩ : BufTy).Contents (Elt F) → (⟨S4096x4096, .f32⟩ : BufTy).Contents (Elt F)) v57 v50
  have v59 := (mulf : (⟨S4096x4096, .f32⟩ : BufTy).Contents (Elt F) → (⟨S4096x4096, .f32⟩ : BufTy).Contents (Elt F) → (⟨S4096x4096, .f32⟩ : BufTy).Contents (Elt F)) v56 v58
  have cst_13 : (⟨S_, .f32⟩ : BufTy).Contents (Elt F) := constant S_ .f32 0x00000000#32
  have v60 : (⟨S_, .f32⟩ : BufTy).Contents (Elt F) := Host.reduceAdd v59 cst_13 reducesTo_S4096x4096_S_d0_1 h_S_
  have cst_14 : (⟨S_, .f32⟩ : BufTy).Contents (Elt F) := constant S_ .f32 0x45800000#32
  have v61 := (Host.divf : (⟨S_, .f32⟩ : BufTy).Contents (Elt F) → (⟨S_, .f32⟩ : BufTy).Contents (Elt F) → (⟨S_, .f32⟩ : BufTy).Contents (Elt F)) v60 cst_14
  have v62 := (Host.log : (⟨S4096x4096, .f32⟩ : BufTy).Contents (Elt F) → (⟨S4096x4096, .f32⟩ : BufTy).Contents (Elt F)) v49
  have v63 := (subf : (⟨S4096x4096, .f32⟩ : BufTy).Contents (Elt F) → (⟨S4096x4096, .f32⟩ : BufTy).Contents (Elt F) → (⟨S4096x4096, .f32⟩ : BufTy).Contents (Elt F)) v62 P2
  have v64 := (mulf : (⟨S4096x4096, .f32⟩ : BufTy).Contents (Elt F) → (⟨S4096x4096, .f32⟩ : BufTy).Contents (Elt F) → (⟨S4096x4096, .f32⟩ : BufTy).Contents (Elt F)) v49 v63
  have cst_15 : (⟨S_, .f32⟩ : BufTy).Contents (Elt F) := constant S_ .f32 0x00000000#32
  have v65 : (⟨S_, .f32⟩ : BufTy).Contents (Elt F) := Host.reduceAdd v64 cst_15 reducesTo_S4096x4096_S_d0_1 h_S_
  have cst_16 : (⟨S_, .f32⟩ : BufTy).Contents (Elt F) := constant S_ .f32 0x45800000#32
  have v66 := (Host.divf : (⟨S_, .f32⟩ : BufTy).Contents (Elt F) → (⟨S_, .f32⟩ : BufTy).Contents (Elt F) → (⟨S_, .f32⟩ : BufTy).Contents (Elt F)) v65 cst_16
  have v67 := (Host.exp : (⟨S4096x4096, .f32⟩ : BufTy).Contents (Elt F) → (⟨S4096x4096, .f32⟩ : BufTy).Contents (Elt F)) P2
  have v68 := (Host.log : (⟨S4096x4096, .f32⟩ : BufTy).Contents (Elt F) → (⟨S4096x4096, .f32⟩ : BufTy).Contents (Elt F)) v67
  have v69 := (subf : (⟨S4096x4096, .f32⟩ : BufTy).Contents (Elt F) → (⟨S4096x4096, .f32⟩ : BufTy).Contents (Elt F) → (⟨S4096x4096, .f32⟩ : BufTy).Contents (Elt F)) v68 v50
  have v70 := (mulf : (⟨S4096x4096, .f32⟩ : BufTy).Contents (Elt F) → (⟨S4096x4096, .f32⟩ : BufTy).Contents (Elt F) → (⟨S4096x4096, .f32⟩ : BufTy).Contents (Elt F)) v67 v69
  have cst_17 : (⟨S_, .f32⟩ : BufTy).Contents (Elt F) := constant S_ .f32 0x00000000#32
  have v71 : (⟨S_, .f32⟩ : BufTy).Contents (Elt F) := Host.reduceAdd v70 cst_17 reducesTo_S4096x4096_S_d0_1 h_S_
  have cst_18 : (⟨S_, .f32⟩ : BufTy).Contents (Elt F) := constant S_ .f32 0x45800000#32
  have v72 := (Host.divf : (⟨S_, .f32⟩ : BufTy).Contents (Elt F) → (⟨S_, .f32⟩ : BufTy).Contents (Elt F) → (⟨S_, .f32⟩ : BufTy).Contents (Elt F)) v71 cst_18
  have v73 := (addf : (⟨S_, .f32⟩ : BufTy).Contents (Elt F) → (⟨S_, .f32⟩ : BufTy).Contents (Elt F) → (⟨S_, .f32⟩ : BufTy).Contents (Elt F)) v55 v61
  have v74 := (addf : (⟨S_, .f32⟩ : BufTy).Contents (Elt F) → (⟨S_, .f32⟩ : BufTy).Contents (Elt F) → (⟨S_, .f32⟩ : BufTy).Contents (Elt F)) v73 v66
  have v75 := (addf : (⟨S_, .f32⟩ : BufTy).Contents (Elt F) → (⟨S_, .f32⟩ : BufTy).Contents (Elt F) → (⟨S_, .f32⟩ : BufTy).Contents (Elt F)) v74 v72
  have cst_19 : (⟨S_, .f32⟩ : BufTy).Contents (Elt F) := constant S_ .f32 0x40800000#32
  have v76 := (Host.divf : (⟨S_, .f32⟩ : BufTy).Contents (Elt F) → (⟨S_, .f32⟩ : BufTy).Contents (Elt F) → (⟨S_, .f32⟩ : BufTy).Contents (Elt F)) v75 cst_19
  v76

/-- The loss from the two logit matrices and the labels. -/
def lossOf (L1 L2 : (⟨S4096x4096, .f32⟩ : BufTy).Contents (Elt F)) (lab : (⟨S4096, .i32⟩ : BufTy).Contents (Elt F)) : (⟨S_, .f32⟩ : BufTy).Contents (Elt F) :=
  combine (labelMatrix lab) (logSoftmax L1) (logSoftmax L2)

end Cert.KernelIdeal.Loss

end
-- ==== Proof.LibTRef.lean ====
/-
  A typed reference carries a buffer together with the equation between the buffer's type and the value's type;
  contents are moved to the buffer's type and back along that equation. Moving there and back changes nothing.
-/
import Idealize.ShloMosaic.Lib.StableHlo

namespace Cert.LibTRef

open Idealize.ShloMosaic

/-- Contents carried to a typed reference's buffer and back are the contents. -/
theorem ofBuf_toBuf {sg : RefSig} {Vl : EltTy → Type} {T : BufTy} (x : StableHlo.TRef sg T) (v : T.Contents Vl) :
    x.ofBuf (x.toBuf v) = v := by
  obtain ⟨r, rfl, h1, h2⟩ := x
  rfl

end Cert.LibTRef
-- ==== Proof.LaterOps.lean ====
/-
  What the operations after the launch compute: the loss of the two result matrices and the labels.

  The later operations fall into four consecutive groups: the label matrix (from the labels), the log-softmax of the first
  result matrix, the log-softmax of the second, and the combination of the three. Each group reads only buffers written
  before it and writes buffers of its own, so the value of the last buffer is the composition `lossOf`.
-/
import proofs.«131688_j36670430773286_1_alg».proof.Proof.KernelIdealRegion
import proofs.«131688_j36670430773286_1_alg».proof.Proof.Tail
import proofs.«131688_j36670430773286_1_alg».proof.Proof.LibTRef

set_option maxRecDepth 16384

noncomputable section

namespace Cert.KernelIdeal.Later

open Cert.KernelIdeal Cert.KernelIdeal.Gen Cert.KernelIdeal.GenP Cert.KernelIdeal.Region Cert.KernelIdeal.Loss
open Idealize.ShloMosaic Idealize.ShloMosaic.TcCoe Idealize.ShloMosaic.StableHlo Idealize.SL.Sem
open Idealize.ShloMosaic.Pipeline (Dat)

variable {F : FTy → Type} [FloatOps F]

/-! ## The four groups, from any contents -/

set_option maxHeartbeats 2000000 in
/-- The first twenty operations leave the label matrix of the labels. -/
theorem label_step (W : Valuation τ sig (Elt F)) :
    after (hostOps1 ++ hostOps1_1 ++ hostOps1_2 ++ hostOps1_3) W (Proc.devRef (τ := τ) .tc main_v32) = labelMatrix (W (Proc.devRef (τ := τ) .tc main_arg3)) := by
  simp only [hostOps1, hostOps1_1, hostOps1_2, hostOps1_3, List.cons_append, List.nil_append]
  after_results_simp <;> rfl
set_option maxHeartbeats 2000000 in
/-- They write neither result matrix. -/
theorem label_keeps (W : Valuation τ sig (Elt F)) :
    after (hostOps1 ++ hostOps1_1 ++ hostOps1_2 ++ hostOps1_3) W (Proc.devRef (τ := τ) .tc main_v21_0) = W (Proc.devRef (τ := τ) .tc main_v21_0)
    ∧ after (hostOps1 ++ hostOps1_1 ++ hostOps1_2 ++ hostOps1_3) W (Proc.devRef (τ := τ) .tc main_v21_1) = W (Proc.devRef (τ := τ) .tc main_v21_1) := by
  simp only [hostOps1, hostOps1_1, hostOps1_2, hostOps1_3, List.cons_append, List.nil_append]
  constructor <;> after_results_simp <;> rfl

set_option maxRecDepth 65536 in
set_option maxHeartbeats 2000000 in
/-- The next fifteen leave the log-softmax of the first result matrix, -/
theorem softmax1_step (W : Valuation τ sig (Elt F)) :
    after hostOps1_4 W (Proc.devRef (τ := τ) .tc main_v33) = logSoftmax (W (Proc.devRef (τ := τ) .tc main_v21_0)) := by
  after_results_simp <;> (try simp only [Cert.LibTRef.ofBuf_toBuf]) <;> rfl
set_option maxHeartbeats 2000000 in
/-- and write neither the label matrix nor the second result matrix. -/
theorem softmax1_keeps (W : Valuation τ sig (Elt F)) :
    after hostOps1_4 W (Proc.devRef (τ := τ) .tc main_v32) = W (Proc.devRef (τ := τ) .tc main_v32) ∧ after hostOps1_4 W (Proc.devRef (τ := τ) .tc main_v21_1) = W (Proc.devRef (τ := τ) .tc main_v21_1) := by
  constructor <;> after_results_simp <;> rfl

set_option maxRecDepth 65536 in
set_option maxHeartbeats 2000000 in
/-- The next fifteen leave the log-softmax of the second result matrix, -/
theorem softmax2_step (W : Valuation τ sig (Elt F)) :
    after hostOps1_5 W (Proc.devRef (τ := τ) .tc main_v34) = logSoftmax (W (Proc.devRef (τ := τ) .tc main_v21_1)) := by
  after_results_simp <;> (try simp only [Cert.LibTRef.ofBuf_toBuf]) <;> rfl
set_option maxHeartbeats 2000000 in
/-- and write neither the label matrix nor the first log-softmax. -/
theorem softmax2_keeps (W : Valuation τ sig (Elt F)) :
    after hostOps1_5 W (Proc.devRef (τ := τ) .tc main_v32) = W (Proc.devRef (τ := τ) .tc main_v32) ∧ after hostOps1_5 W (Proc.devRef (τ := τ) .tc main_v33) = W (Proc.devRef (τ := τ) .tc main_v33) := by
  constructor <;> after_results_simp <;> rfl

set_option maxHeartbeats 8000000 in
/-- The last fifty-five combine the three. -/
theorem combine_step (W : Valuation τ sig (Elt F)) :
    after hostOps1_6 W (Proc.devRef (τ := τ) .tc main_v76) = combine (W (Proc.devRef (τ := τ) .tc main_v32)) (W (Proc.devRef (τ := τ) .tc main_v33)) (W (Proc.devRef (τ := τ) .tc main_v34)) := by
  after_results_simp <;> rfl

/-! ## All of them -/

/-- From any contents, the later operations leave in the result buffer the loss of the two result matrices and the labels. -/
theorem later_result (W : Valuation τ sig (Elt F)) :
    after (laterOps (F := F)).flatten W (Proc.devRef (τ := τ) .tc main_v76) = lossOf (W (Proc.devRef (τ := τ) .tc main_v21_0)) (W (Proc.devRef (τ := τ) .tc main_v21_1)) (W (Proc.devRef (τ := τ) .tc main_arg3)) := by
  have e : (laterOps (F := F)).flatten
      = (hostOps1 ++ hostOps1_1 ++ hostOps1_2 ++ hostOps1_3) ++ (hostOps1_4 ++ (hostOps1_5 ++ hostOps1_6)) := by
    simp only [List.flatten_cons, List.flatten_nil, List.append_nil, List.append_assoc]
  rw [e, StableHlo.after_append, StableHlo.after_append, StableHlo.after_append, combine_step,
    softmax2_step, (softmax2_keeps _).1, (softmax2_keeps _).2, softmax1_step, (softmax1_keeps _).1, (softmax1_keeps _).2,
    label_step, (label_keeps _).1, (label_keeps _).2]
  rfl

/-- At the end of the run the result buffer holds the loss of the two matrices the tiles assemble and the launch's labels. -/
theorem result_eq (m : (ℓ : Loc nD τ sig) → Buf (Elt F) ℓ)
    (dats : (p : Fin 1) → (c : Dev nD) → Dat τ (Elt F) Unit ℕ (UR sig nD τ) ℕ (cfgs p) c) (c : Dev nD) :
    Pipeline.afterTail₀ cfgs dats 0 (V0 m) laterOps c main_v76
      = lossOf ((dats 0 c).arrAt 2 cfg0.N) ((dats 0 c).arrAt 3 cfg0.N) (m ((c : Thread nD τ).loc main_arg3)) := by
  unfold Pipeline.afterTail₀
  have h2 : Pipeline.withArrays spec0 c (V0 m c) (fun w => (dats 0 c).arrAt w cfg0.N) (Proc.devRef (τ := τ) .tc main_v21_0) = (dats 0 c).arrAt 2 cfg0.N :=
    Pipeline.withArrays_arr spec0 launch0.win.arr_inj c _ _ 2
  have h3 : Pipeline.withArrays spec0 c (V0 m c) (fun w => (dats 0 c).arrAt w cfg0.N) (Proc.devRef (τ := τ) .tc main_v21_1) = (dats 0 c).arrAt 3 cfg0.N :=
    Pipeline.withArrays_arr spec0 launch0.win.arr_inj c _ _ 3
  have h4 : Pipeline.withArrays spec0 c (V0 m c) (fun w => (dats 0 c).arrAt w cfg0.N) (Proc.devRef (τ := τ) .tc main_arg3) = m ((c : Thread nD τ).loc main_arg3) :=
    (Pipeline.withArrays_of_ne _ c (V0 m c) _ main_arg3 (by decide)).trans (V_of_not_written m c main_arg3 (by decide))
  rw [later_result, h2, h3, h4]

end Cert.KernelIdeal.Later

end
-- ==== Proof.TileProduct.lean ====
/-
  The kernel's two tile payloads read at an entry.

  The body multiplies a 512 × 1024 tile `x0` by the transpose of a 512 × 1024 tile `x1`, contracting the long axis of
  both into a zero accumulator: entry (p, q) of the product is `∑ k, x0 (p, k) · x1 (q, k)`. The second payload is the
  transpose of the first, so its entry (q, p) is the same sum.
-/
import proofs.«131688_j36670430773286_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx

/-- The left operand's row is the output row. -/
theorem lhs_row (i : S512x512.Idx) (q : dot_S512x1024_S512x1024_S512x512_1_1_0_0_n_n.contr.Idx) :
    (dot_S512x1024_S512x1024_S512x512_1_1_0_0_n_n.lhsIdx i q 0).val = (i 0).val := by
  unfold DotDims.lhsIdx
  rw [dif_neg (show ¬(0 : Fin S512x1024.rank) ∈ dot_S512x1024_S512x1024_S512x512_1_1_0_0_n_n.lhsBatch by decide), dif_pos (show (0 : Fin S512x1024.rank) ∈ dot_S512x1024_S512x1024_S512x512_1_1_0_0_n_n.lhsNonContracting by decide)]
  rfl
/-- The left operand's column is the contracted coordinate. -/
theorem lhs_col (i : S512x512.Idx) (q : dot_S512x1024_S512x1024_S512x512_1_1_0_0_n_n.contr.Idx) :
    (dot_S512x1024_S512x1024_S512x512_1_1_0_0_n_n.lhsIdx i q 1).val = (q ⟨0, by decide⟩).val :=
  dot_S512x1024_S512x1024_S512x512_1_1_0_0_n_n.lhsIdx_val_of_single rfl i q
/-- The right operand's row is the output column. -/
theorem rhs_row (i : S512x512.Idx) (q : dot_S512x1024_S512x1024_S512x512_1_1_0_0_n_n.contr.Idx) :
    (dot_S512x1024_S512x1024_S512x512_1_1_0_0_n_n.rhsIdx i q 0).val = (i 1).val := by
  unfold DotDims.rhsIdx
  rw [dif_neg (show ¬(0 : Fin S512x1024.rank) ∈ dot_S512x1024_S512x1024_S512x512_1_1_0_0_n_n.rhsBatch by decide), dif_pos (show (0 : Fin S512x1024.rank) ∈ dot_S512x1024_S512x1024_S512x512_1_1_0_0_n_n.rhsNonContracting by decide)]
  rfl
/-- The right operand's column is the contracted coordinate. -/
theorem rhs_col (i : S512x512.Idx) (q : dot_S512x1024_S512x1024_S512x512_1_1_0_0_n_n.contr.Idx) :
    (dot_S512x1024_S512x1024_S512x512_1_1_0_0_n_n.rhsIdx i q 1).val = (q ⟨0, by decide⟩).val :=
  dot_S512x1024_S512x1024_S512x512_1_1_0_0_n_n.rhsIdx_val_of_single rfl i q

/-- Entry (p, q) of the product of `x0` with the transpose of `x1`. -/
theorem prod_apply (x0 x1 : Vec Ideal S512x1024 .bf16) (p q : Fin 512) :
    k0_pay1 (F := Ideal) x0 x1 (ix2 p q) = ∑ k : Fin 1024, x0 (ix2 p k) * x1 (ix2 q k) := by
  unfold k0_pay1
  simp only [shapeCast_self, matmul]
  rw [Ideal.matmul_constant_zero_apply, ← Equiv.sum_comp (ValueIdx.contrEquiv1 dot_S512x1024_S512x1024_S512x512_1_1_0_0_n_n 1024 rfl rfl).symm]
  refine Finset.sum_congr rfl fun k _ => ?_
  have hk := ValueIdx.contrEquiv1_symm_val dot_S512x1024_S512x1024_S512x512_1_1_0_0_n_n 1024 rfl rfl k
  have el : dot_S512x1024_S512x1024_S512x512_1_1_0_0_n_n.lhsIdx (ix2 p q) ((ValueIdx.contrEquiv1 dot_S512x1024_S512x1024_S512x512_1_1_0_0_n_n 1024 rfl rfl).symm k) = ix2 p k := funext fun a => Fin.ext (by
    match a with
    | ⟨0, _⟩ => exact lhs_row _ _
    | ⟨1, _⟩ => exact (lhs_col _ _).trans hk)
  have er : dot_S512x1024_S512x1024_S512x512_1_1_0_0_n_n.rhsIdx (ix2 p q) ((ValueIdx.contrEquiv1 dot_S512x1024_S512x1024_S512x512_1_1_0_0_n_n 1024 rfl rfl).symm k) = ix2 q k := funext fun a => Fin.ext (by
    match a with
    | ⟨0, _⟩ => exact rhs_row _ _
    | ⟨1, _⟩ => exact (rhs_col _ _).trans hk)
  rw [el, er]

/-- Entry (q, p) of the transposed product is entry (p, q) of the product. -/
theorem prodT_apply (x0 x1 : Vec Ideal S512x1024 .bf16) (p q : Fin 512) :
    k0_pay2 (F := Ideal) x0 x1 (ix2 q p) = ∑ k : Fin 1024, x0 (ix2 p k) * x1 (ix2 q k) := by
  unfold k0_pay2
  rw [transpose_apply [1, 0] (k0_pay1 (F := Ideal) x0 x1) transposes_S512x512_p1_0_S512x512 (ix2 q p) (ix2 p q)
    (fun b => by match b with | ⟨0, _⟩ => rfl | ⟨1, _⟩ => rfl)]
  exact prod_apply x0 x1 p q

end Cert.KernelIdeal.Tile

end
-- ==== Proof.Logits.lean ====
/-
  The two result matrices after the launch, as whole matrices.

  Grid point `t` = (i, j) of the 8 × 8 grid reads row block i of the first input matrix `a` and row block j of the second
  `b` (512 rows each, all 1024 columns), and writes A_i · B_jᵀ to tile (i, j) of the first result and its transpose to tile
  (j, i) of the second. Entry (r, s) of tile (i, j) is entry (512 i + r, 512 j + s) of the matrix, so the first result is
  the whole product `a · bᵀ`, entry (I, J) ↦ ∑ k, a (I, k) · b (J, k), and the second is its transpose; every entry lies
  in exactly the tile its coordinates divided by 512 name, so the 64 tiles cover each matrix.
-/
import proofs.«131688_j36670430773286_1_alg».proof.Proof.KernelIdealRegion
import proofs.«131688_j36670430773286_1_alg».proof.Proof.TileProduct

set_option maxRecDepth 16384

noncomputable section

namespace Cert.KernelIdeal.Logits

open Cert.KernelIdeal Cert.KernelIdeal.Gen Cert.KernelIdeal.GenP Cert.KernelIdeal.Region Cert.KernelIdeal.Tile
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The product of `a` with the transpose of `b`: entry (I, J) is the inner product of row I of `a` and row J of `b`. -/
def prodNT (a b : (⟨S4096x1024, .bf16⟩ : BufTy).Contents (Elt Ideal)) : (⟨S4096x4096, .f32⟩ : BufTy).Contents (Elt Ideal) :=
  fun i => ∑ k : Fin 1024, a (ix2 (i 0) k) * b (ix2 (i 1) k)
/-- Its transpose: entry (J, I) is the inner product of row I of `a` and row J of `b`. -/
def prodTN (a b : (⟨S4096x1024, .bf16⟩ : BufTy).Contents (Elt Ideal)) : (⟨S4096x4096, .f32⟩ : BufTy).Contents (Elt Ideal) :=
  fun i => ∑ k : Fin 1024, a (ix2 (i 1) k) * b (ix2 (i 0) k)

/-- The first input matrix as the launch finds it (the scaled, normalised image matrix). -/
abbrev inA (c : Dev nD) : (⟨S4096x1024, .bf16⟩ : BufTy).Contents (Elt Ideal) := V m c main_v19
/-- The second input matrix as the launch finds it (the normalised table matrix). -/
abbrev inB (c : Dev nD) : (⟨S4096x1024, .bf16⟩ : BufTy).Contents (Elt Ideal) := V m c main_v20

theorem hz : (![0, 0] : Fin 2 → Nat) = fun _ => 0 := funext fun a => by fin_cases a <;> rfl

/-- The block index maps, decided over the 64 grid points: the first input moves with the first result's row block, the
    second input with its column block, neither along the long axis; the second result's block is the first's with the
    two coordinates exchanged; the block coordinates stay below 8. -/
theorem idx_facts : ∀ t : Fin cfg0.N,
    win0_0.index t (0 : Fin 2) = win0_2.index t (0 : Fin 2) ∧ win0_0.index t (1 : Fin 2) = 0
    ∧ win0_1.index t (0 : Fin 2) = win0_2.index t (1 : Fin 2) ∧ win0_1.index t (1 : Fin 2) = 0
    ∧ win0_3.index t (0 : Fin 2) = win0_2.index t (1 : Fin 2) ∧ win0_3.index t (1 : Fin 2) = win0_2.index t (0 : Fin 2)
    ∧ win0_2.index t (0 : Fin 2) ≤ 7 ∧ win0_2.index t (1 : Fin 2) ≤ 7 :=
  (by decide +kernel : ∀ t : Fin grid0.N, _)

/-- Every tile of the first result is some grid point's, -/
theorem idx_onto2 : ∀ (q0 q1 : Fin 8), ∃ t : Fin cfg0.N, win0_2.index t = ![q0.val, q1.val] :=
  (by decide +kernel : ∀ (q0 q1 : Fin 8), ∃ t : Fin grid0.N, win0_2.index t = ![q0.val, q1.val])
/-- and every tile of the second. -/
theorem idx_onto3 : ∀ (q0 q1 : Fin 8), ∃ t : Fin cfg0.N, win0_3.index t = ![q0.val, q1.val] :=
  (by decide +kernel : ∀ (q0 q1 : Fin 8), ∃ t : Fin grid0.N, win0_3.index t = ![q0.val, q1.val])

/-- What grid point `t` writes back to the first result is tile `t` of the whole product. -/
theorem flushed2_eq (c : Dev nD) (t : Fin cfg0.N) :
    (dats m 0 c).flushed 2 t = ((cfg0.win 2).blk t).view.read (Elt Ideal) (prodNT (inA m c) (inB m c)) := by
  show (cfg0.win 2).cut (grid0.coords t) ((dats m 0 c).after 2 t) = _
  rw [after2]
  unfold tileProd
  rw [View.canon_unit_zero hz]
  simp only [View.ld_unit_zero (S := S512x1024) hz]
  obtain ⟨e0, e1, e2, e3, e4, e5, e6, e7⟩ := idx_facts t
  funext j
  obtain ⟨p, q, rfl⟩ : ∃ (p q : Fin 512), j = ix2 p q := ⟨j 0, j 1, eq_ix2 j⟩
  refine (prod_apply (iblk m c 0 t) (iblk m c 1 t) p q).trans ?_
  show _ = ∑ k : Fin 1024, inA m c (ix2 ((((cfg0.win 2).blk t).view.emb (ix2 p q)) 0) k) * inB m c (ix2 ((((cfg0.win 2).blk t).view.emb (ix2 p q)) 1) k)
  refine Finset.sum_congr rfl fun k _ => ?_
  show inA m c (((cfg0.win 0).blk t).view.emb (ix2 p k)) * inB m c (((cfg0.win 1).blk t).view.emb (ix2 q k))
    = inA m c (ix2 ((((cfg0.win 2).blk t).view.emb (ix2 p q)) 0) k) * inB m c (ix2 ((((cfg0.win 2).blk t).view.emb (ix2 p q)) 1) k)
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 512 + 1 * p.val = win0_2.index t (0 : Fin 2) * 512 + 1 * p.val; omega
    | ⟨1, _⟩ => show win0_0.index t (1 : Fin 2) * 1024 + 1 * k.val = k.val; omega
  have h1 : ((cfg0.win 1).blk t).view.emb (ix2 q k) = ix2 ((((cfg0.win 2).blk t).view.emb (ix2 p q)) 1) k := by
    funext a; apply Fin.ext
    match a with
    | ⟨0, _⟩ => show win0_1.index t (0 : Fin 2) * 512 + 1 * q.val = win0_2.index t (1 : Fin 2) * 512 + 1 * q.val; omega
    | ⟨1, _⟩ => show win0_1.index t (1 : Fin 2) * 1024 + 1 * k.val = k.val; omega
  rw [h0, h1]
  rfl

/-- What grid point `t` writes back to the second result is tile `t` of the transposed product. -/
theorem flushed3_eq (c : Dev nD) (t : Fin cfg0.N) :
    (dats m 0 c).flushed 3 t = ((cfg0.win 3).blk t).view.read (Elt Ideal) (prodTN (inA m c) (inB m c)) := by
  show (cfg0.win 3).cut (grid0.coords t) ((dats m 0 c).after 3 t) = _
  rw [after3]
  unfold tileProdT
  rw [View.canon_unit_zero hz]
  simp only [View.ld_unit_zero (S := S512x1024) hz]
  obtain ⟨e0, e1, e2, e3, e4, e5, e6, e7⟩ := idx_facts t
  funext j
  obtain ⟨q, p, rfl⟩ : ∃ (q p : Fin 512), j = ix2 q p := ⟨j 0, j 1, eq_ix2 j⟩
  refine (prodT_apply (iblk m c 0 t) (iblk m c 1 t) p q).trans ?_
  show _ = ∑ k : Fin 1024, inA m c (ix2 ((((cfg0.win 3).blk t).view.emb (ix2 q p)) 1) k) * inB m c (ix2 ((((cfg0.win 3).blk t).view.emb (ix2 q p)) 0) k)
  refine Finset.sum_congr rfl fun k _ => ?_
  show inA m c (((cfg0.win 0).blk t).view.emb (ix2 p k)) * inB m c (((cfg0.win 1).blk t).view.emb (ix2 q k))
    = inA m c (ix2 ((((cfg0.win 3).blk t).view.emb (ix2 q p)) 1) k) * inB m c (ix2 ((((cfg0.win 3).blk t).view.emb (ix2 q p)) 0) k)
  have h0 : ((cfg0.win 0).blk t).view.emb (ix2 p k) = ix2 ((((cfg0.win 3).blk t).view.emb (ix2 q p)) 1) k := by
    funext a; apply Fin.ext
    match a with
    | ⟨0, _⟩ => show win0_0.index t (0 : Fin 2) * 512 + 1 * p.val = win0_3.index t (1 : Fin 2) * 512 + 1 * p.val; omega
    | ⟨1, _⟩ => show win0_0.index t (1 : Fin 2) * 1024 + 1 * k.val = k.val; omega
  have h1 : ((cfg0.win 1).blk t).view.emb (ix2 q k) = ix2 ((((cfg0.win 3).blk t).view.emb (ix2 q p)) 0) k := by
    funext a; apply Fin.ext
    match a with
    | ⟨0, _⟩ => show win0_1.index t (0 : Fin 2) * 512 + 1 * q.val = win0_3.index t (0 : Fin 2) * 512 + 1 * q.val; omega
    | ⟨1, _⟩ => show win0_1.index t (1 : Fin 2) * 1024 + 1 * k.val = k.val; omega
  rw [h0, h1]
  rfl

/-- An entry lies in grid point `t`'s tile of the first result iff each coordinate lies in the tile's range. -/
theorem mem_blk2 (t : Fin cfg0.N) (i : S4096x4096.Idx) :
    i ∈ ((cfg0.win 2).blk t).view.set ↔ ∀ a : Fin 2, win0_2.index t a * S512x512.size a ≤ (i a).val ∧ (i a).val < win0_2.index t a * S512x512.size a + S512x512.size a := by
  show i ∈ ((View.whole main_v21_0).slice (win0_2.rect t)).set ↔ _
  rw [View.set_slice_whole, Rect.mem_set_unit]
  exact Iff.rfl
/-- The same for the second result. -/
theorem mem_blk3 (t : Fin cfg0.N) (i : S4096x4096.Idx) :
    i ∈ ((cfg0.win 3).blk t).view.set ↔ ∀ a : Fin 2, win0_3.index t a * S512x512.size a ≤ (i a).val ∧ (i a).val < win0_3.index t a * S512x512.size a + S512x512.size a := by
  show i ∈ ((View.whole main_v21_1).slice (win0_3.rect t)).set ↔ _
  rw [View.set_slice_whole, Rect.mem_set_unit]
  exact Iff.rfl

/-- Every entry of the first result is in the tile its coordinates divided by 512 name. -/
theorem cover2 (i : S4096x4096.Idx) : ∃ t : Fin cfg0.N, (cfg0.win 2).flush t = true ∧ i ∈ ((cfg0.win 2).blk t).view.set := by
  have hi0 : (i 0).val < 4096 := (i 0).isLt
  have hi1 : (i 1).val < 4096 := (i 1).isLt
  obtain ⟨t, ht⟩ := idx_onto2 ⟨(i 0).val / 512, by omega⟩ ⟨(i 1).val / 512, by omega⟩
  have q0 : win0_2.index t (0 : Fin 2) = (i 0).val / 512 := congrFun ht 0
  have q1 : win0_2.index t (1 : Fin 2) = (i 1).val / 512 := congrFun ht 1
  refine ⟨t, flush0_2 t, ?_⟩
  rw [mem_blk2]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 512 ≤ (i 1).val ∧ (i 1).val < win0_2.index t (1 : Fin 2) * 512 + 512; omega
/-- The same for the second result. -/
theorem cover3 (i : S4096x4096.Idx) : ∃ t : Fin cfg0.N, (cfg0.win 3).flush t = true ∧ i ∈ ((cfg0.win 3).blk t).view.set := by
  have hi0 : (i 0).val < 4096 := (i 0).isLt
  have hi1 : (i 1).val < 4096 := (i 1).isLt
  obtain ⟨t, ht⟩ := idx_onto3 ⟨(i 0).val / 512, by omega⟩ ⟨(i 1).val / 512, by omega⟩
  have q0 : win0_3.index t (0 : Fin 2) = (i 0).val / 512 := congrFun ht 0
  have q1 : win0_3.index t (1 : Fin 2) = (i 1).val / 512 := congrFun ht 1
  refine ⟨t, flush0_3 t, ?_⟩
  rw [mem_blk3]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 512 ≤ (i 1).val ∧ (i 1).val < win0_3.index t (1 : Fin 2) * 512 + 512; omega

/-- After the launch the first result matrix is the whole product, -/
theorem final2 (c : Dev nD) : (dats m 0 c).arrAt 2 cfg0.N = prodNT (inA m c) (inB m c) :=
  (dats m 0 c).arrAt_eq_of_cover 2 _ (fun t _ => flushed2_eq m c t) cover2
/-- and the second its transpose. -/
theorem final3 (c : Dev nD) : (dats m 0 c).arrAt 3 cfg0.N = prodTN (inA m c) (inB m c) :=
  (dats m 0 c).arrAt_eq_of_cover 3 _ (fun t _ => flushed3_eq m c t) cover3

end Cert.KernelIdeal.Logits

end
-- ==== Proof.RefRun.lean ====
/-
  The reference program's run: it ends with the loss of its two logit matrices and the labels.

  The reference's 134 operations fall into five consecutive groups: the two row normalisations, the exponential of the
  scale and the two logit matrices; the label matrix; the log-softmax of each logit matrix; and the combination. Each
  group reads only the arguments and buffers written before it, and writes buffers of its own. So from any contents the
  result buffer ends at `lossOf` of the two logit matrices (as functions of the arguments) and the labels, and the four
  arguments are written by no operation.
-/
import proofs.«131688_j36670430773286_1_alg».proof.Proof.RefOps
import proofs.«131688_j36670430773286_1_alg».proof.Proof.RefRead
import proofs.«131688_j36670430773286_1_alg».proof.Proof.Tail
import proofs.«131688_j36670430773286_1_alg».proof.Proof.LibTRef

set_option maxRecDepth 16384

noncomputable section

namespace Cert.ReferenceIdeal.Staged

open Cert.ReferenceIdeal Cert.ReferenceIdeal.Gen Cert.ReferenceIdeal.ValueP Cert.ReferenceIdeal.ReadP
open Idealize.ShloMosaic Idealize.ShloMosaic.TcCoe Idealize.ShloMosaic.StableHlo Idealize.SL.Sem

variable {F : FTy → Type} [FloatOps F]

/-! ## The five groups, from any contents -/

set_option maxHeartbeats 4000000 in
/-- The first group leaves the two logit matrices as the stage functions of the arguments say. -/
theorem logits_step (W : Valuation τ sig (Elt F)) :
    after opsLogits W (Proc.devRef (τ := τ) .tc main_v20)
        = val_main_v20 (F := F) (W (Proc.devRef (τ := τ) .tc main_arg0)) (W (Proc.devRef (τ := τ) .tc main_arg1)) (W (Proc.devRef (τ := τ) .tc main_arg2))
    ∧ after opsLogits W (Proc.devRef (τ := τ) .tc main_v24)
        = val_main_v24 (F := F) (W (Proc.devRef (τ := τ) .tc main_arg0)) (W (Proc.devRef (τ := τ) .tc main_arg1)) (W (Proc.devRef (τ := τ) .tc main_arg2)) := by
  constructor <;> after_results_simp <;> rfl

set_option maxRecDepth 65536 in
set_option maxHeartbeats 2000000 in
/-- The second leaves the label matrix of the labels. -/
theorem label_step (W : Valuation τ sig (Elt F)) :
    after opsLabel W (Proc.devRef (τ := τ) .tc main_v35) = Cert.KernelIdeal.Loss.labelMatrix (W (Proc.devRef (τ := τ) .tc main_arg3)) := by
  after_results_simp <;> (try simp only [Cert.LibTRef.ofBuf_toBuf]) <;> rfl
set_option maxRecDepth 65536 in
set_option maxHeartbeats 2000000 in
/-- The third leaves the log-softmax of the first logit matrix, -/
theorem softmax1_step (W : Valuation τ sig (Elt F)) :
    after opsSoftmax1 W (Proc.devRef (τ := τ) .tc main_v36) = Cert.KernelIdeal.Loss.logSoftmax (W (Proc.devRef (τ := τ) .tc main_v20)) := by
  after_results_simp <;> (try simp only [Cert.LibTRef.ofBuf_toBuf]) <;> rfl
set_option maxRecDepth 65536 in
set_option maxHeartbeats 2000000 in
/-- the fourth the log-softmax of the second, -/
theorem softmax2_step (W : Valuation τ sig (Elt F)) :
    after opsSoftmax2 W (Proc.devRef (τ := τ) .tc main_v37) = Cert.KernelIdeal.Loss.logSoftmax (W (Proc.devRef (τ := τ) .tc main_v24)) := by
  after_results_simp <;> (try simp only [Cert.LibTRef.ofBuf_toBuf]) <;> rfl
set_option maxHeartbeats 8000000 in
/-- and the fifth combines the three. -/
theorem combine_step (W : Valuation τ sig (Elt F)) :
    after opsCombine W (Proc.devRef (τ := τ) .tc main_v79)
      = Cert.KernelIdeal.Loss.combine (W (Proc.devRef (τ := τ) .tc main_v35)) (W (Proc.devRef (τ := τ) .tc main_v36)) (W (Proc.devRef (τ := τ) .tc main_v37)) := by
  after_results_simp <;> rfl

/-! ## What each group leaves alone -/

/-- The buffers the operations write, one each, group by group. -/
abbrev writtenLogits : List (Ref sig .tc) := [main_v0, main_cst, main_v1, main_v2, main_v3, main_cst_0, main_v4, main_v5, main_v6, main_v7, main_v8, main_cst_1, main_v9, main_v10, main_v11, main_cst_2, main_v12, main_v13, main_v14, main_v15, main_v16, main_v17, main_v18, main_v19, main_v20, main_v21, main_v22, main_v23, main_v24]
abbrev writtenLabel : List (Ref sig .tc) := [main_v25, main_v26, main_cst_3, main_v27, main_v28, main_cst_4, main_cst_5, main_call0_v0, main_call0_v1, main_v29, main_v30, main_cst_6, main_v31, main_v32, main_v33, main_v34, main_call1_v0, main_call1_v1, main_call1_v2, main_v35]
abbrev writtenSoftmax1 : List (Ref sig .tc) := [main_call2_cst, main_call2_v0, main_call2_cst_0, main_call2_v1, main_call2_v2, main_call2_v3, main_call2_v4, main_call2_v5, main_call2_v6, main_call2_cst_1, main_call2_v7, main_call2_v8, main_call2_v9, main_call2_v10, main_v36]
abbrev writtenSoftmax2 : List (Ref sig .tc) := [main_call3_cst, main_call3_v0, main_call3_cst_0, main_call3_v1, main_call3_v2, main_call3_v3, main_call3_v4, main_call3_v5, main_call3_v6, main_call3_cst_1, main_call3_v7, main_call3_v8, main_call3_v9, main_call3_v10, main_v37]
abbrev writtenCombine : List (Ref sig .tc) := [main_cst_7, main_v38, main_v39, main_v40, main_v41, main_cst_8, main_v42, main_cst_9, main_v43, main_v44, main_v45, main_v46, main_v47, main_v48, main_cst_10, main_v49, main_v50, main_v51, main_v52, main_v53, main_v54, main_v55, main_v56, main_cst_11, main_v57, main_cst_12, main_v58, main_v59, main_v60, main_v61, main_v62, main_cst_13, main_v63, main_cst_14, main_v64, main_v65, main_v66, main_v67, main_cst_15, main_v68, main_cst_16, main_v69, main_v70, main_v71, main_v72, main_v73, main_cst_17, main_v74, main_cst_18, main_v75, main_v76, main_v77, main_v78, main_cst_19, main_v79]

theorem opsLogits_writes : (opsLogits : List (HloOp τ sig (Elt F))).Forall fun op =>
    op.writes ⊆ (writtenLogits.map (Proc.devRef (τ := τ) .tc)).toFinset := by
  simp only [List.Forall, StableHlo.nullary_writes, StableHlo.unary_writes, StableHlo.binary_writes, StableHlo.ternary_writes,
    Finset.singleton_subset_iff, List.mem_toFinset]
  repeat' apply And.intro
  all_goals exact List.mem_map_of_mem (by decide)
theorem opsLogits_fresh : (opsLogits : List (HloOp τ sig (Elt F))).Forall fun op => op.fresh = ∅ := by
  simp only [List.Forall]; repeat' constructor

theorem opsLabel_writes : (opsLabel : List (HloOp τ sig (Elt F))).Forall fun op =>
    op.writes ⊆ (writtenLabel.map (Proc.devRef (τ := τ) .tc)).toFinset := by
  simp only [List.Forall, StableHlo.nullary_writes, StableHlo.unary_writes, StableHlo.binary_writes, StableHlo.ternary_writes,
    Finset.singleton_subset_iff, List.mem_toFinset]
  repeat' apply And.intro
  all_goals exact List.mem_map_of_mem (by decide)
theorem opsLabel_fresh : (opsLabel : List (HloOp τ sig (Elt F))).Forall fun op => op.fresh = ∅ := by
  simp only [List.Forall]; repeat' constructor

theorem opsSoftmax1_writes : (opsSoftmax1 : List (HloOp τ sig (Elt F))).Forall fun op =>
    op.writes ⊆ (writtenSoftmax1.map (Proc.devRef (τ := τ) .tc)).toFinset := by
  simp only [List.Forall, StableHlo.nullary_writes, StableHlo.unary_writes, StableHlo.binary_writes, StableHlo.ternary_writes,
    Finset.singleton_subset_iff, List.mem_toFinset]
  repeat' apply And.intro
  all_goals exact List.mem_map_of_mem (by decide)
theorem opsSoftmax1_fresh : (opsSoftmax1 : List (HloOp τ sig (Elt F))).Forall fun op => op.fresh = ∅ := by
  simp only [List.Forall]; repeat' constructor

theorem opsSoftmax2_writes : (opsSoftmax2 : List (HloOp τ sig (Elt F))).Forall fun op =>
    op.writes ⊆ (writtenSoftmax2.map (Proc.devRef (τ := τ) .tc)).toFinset := by
  simp only [List.Forall, StableHlo.nullary_writes, StableHlo.unary_writes, StableHlo.binary_writes, StableHlo.ternary_writes,
    Finset.singleton_subset_iff, List.mem_toFinset]
  repeat' apply And.intro
  all_goals exact List.mem_map_of_mem (by decide)
theorem opsSoftmax2_fresh : (opsSoftmax2 : List (HloOp τ sig (Elt F))).Forall fun op => op.fresh = ∅ := by
  simp only [List.Forall]; repeat' constructor

theorem opsCombine_writes : (opsCombine : List (HloOp τ sig (Elt F))).Forall fun op =>
    op.writes ⊆ (writtenCombine.map (Proc.devRef (τ := τ) .tc)).toFinset := by
  simp only [List.Forall, StableHlo.nullary_writes, StableHlo.unary_writes, StableHlo.binary_writes, StableHlo.ternary_writes,
    Finset.singleton_subset_iff, List.mem_toFinset]
  repeat' apply And.intro
  all_goals exact List.mem_map_of_mem (by decide)
theorem opsCombine_fresh : (opsCombine : List (HloOp τ sig (Elt F))).Forall fun op => op.fresh = ∅ := by
  simp only [List.Forall]; repeat' constructor

/-! ## All of them -/

/-- From any contents the result buffer ends at the loss of the two logit matrices and the labels. -/
theorem result_eq (W : Valuation τ sig (Elt F)) :
    after (ops (F := F)) W (Proc.devRef (τ := τ) .tc main_v79)
      = Cert.KernelIdeal.Loss.lossOf
          (val_main_v20 (F := F) (W (Proc.devRef (τ := τ) .tc main_arg0)) (W (Proc.devRef (τ := τ) .tc main_arg1)) (W (Proc.devRef (τ := τ) .tc main_arg2)))
          (val_main_v24 (F := F) (W (Proc.devRef (τ := τ) .tc main_arg0)) (W (Proc.devRef (τ := τ) .tc main_arg1)) (W (Proc.devRef (τ := τ) .tc main_arg2)))
          (W (Proc.devRef (τ := τ) .tc main_arg3)) := by
  show after (opsLogits ++ (opsLabel ++ (opsSoftmax1 ++ (opsSoftmax2 ++ opsCombine)))) W _ = _
  rw [after_append, after_append, after_append, after_append, combine_step, softmax2_step,
    after_of_writes_sub opsSoftmax2 _ opsSoftmax2_writes (r := main_v35) (by decide),
    after_of_writes_sub opsSoftmax2 _ opsSoftmax2_writes (r := main_v36) (by decide),
    softmax1_step,
    after_of_writes_sub opsSoftmax1 _ opsSoftmax1_writes (r := main_v35) (by decide),
    after_of_writes_sub opsSoftmax1 _ opsSoftmax1_writes (r := main_v24) (by decide),
    label_step,
    after_of_writes_sub opsLabel _ opsLabel_writes (r := main_v20) (by decide),
    after_of_writes_sub opsLabel _ opsLabel_writes (r := main_v24) (by decide),
    (logits_step W).1, (logits_step W).2,
    after_of_writes_sub opsLogits _ opsLogits_writes (r := main_arg3) (by decide)]
  rfl

/-- No operation writes an argument. -/
theorem arg_kept (W : Valuation τ sig (Elt F)) (b : Ref sig .tc)
    (h1 : b ∉ writtenLogits) (h2 : b ∉ writtenLabel) (h3 : b ∉ writtenSoftmax1) (h4 : b ∉ writtenSoftmax2) (h5 : b ∉ writtenCombine) :
    after (ops (F := F)) W (Proc.devRef (τ := τ) .tc b) = W (Proc.devRef (τ := τ) .tc b) := by
  show after (opsLogits ++ (opsLabel ++ (opsSoftmax1 ++ (opsSoftmax2 ++ opsCombine)))) W _ = _
  rw [after_append, after_append, after_append, after_append,
    after_of_writes_sub opsCombine _ opsCombine_writes h5, after_of_writes_sub opsSoftmax2 _ opsSoftmax2_writes h4,
    after_of_writes_sub opsSoftmax1 _ opsSoftmax1_writes h3, after_of_writes_sub opsLabel _ opsLabel_writes h2,
    after_of_writes_sub opsLogits _ opsLogits_writes h1]

/-- None of them allocates. -/
theorem ops_fresh : ∀ op ∈ (ops : List (HloOp τ sig (Elt F))), op.fresh = ∅ := by
  intro op hop
  simp only [List.mem_append] at hop
  rcases hop with h | h | h | h | h
  · exact (List.forall_iff_forall_mem.mp opsLogits_fresh) op h
  · exact (List.forall_iff_forall_mem.mp opsLabel_fresh) op h
  · exact (List.forall_iff_forall_mem.mp opsSoftmax1_fresh) op h
  · exact (List.forall_iff_forall_mem.mp opsSoftmax2_fresh) op h
  · exact (List.forall_iff_forall_mem.mp opsCombine_fresh) op h

/-- From any memory with zero counters every weakly fair execution of the reference terminates without a fault, with
    the result at the loss of its two logit matrices and the labels, and the four arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v79)
        = Cert.KernelIdeal.Loss.lossOf
            (val_main_v20 (F := F) (m ((c.tc : Thread nD τ).loc main_arg0)) (m ((c.tc : Thread nD τ).loc main_arg1)) (m ((c.tc : Thread nD τ).loc main_arg2)))
            (val_main_v24 (F := F) (m ((c.tc : Thread nD τ).loc main_arg0)) (m ((c.tc : Thread nD τ).loc main_arg1)) (m ((c.tc : Thread nD τ).loc main_arg2)))
            (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨(h c main_v79).trans (result_eq _),
     (h c main_arg0).trans (arg_kept _ main_arg0 (by decide) (by decide) (by decide) (by decide) (by decide)),
     (h c main_arg1).trans (arg_kept _ main_arg1 (by decide) (by decide) (by decide) (by decide) (by decide)),
     (h c main_arg2).trans (arg_kept _ main_arg2 (by decide) (by decide) (by decide) (by decide) (by decide)),
     (h c main_arg3).trans (arg_kept _ main_arg3 (by decide) (by decide) (by decide) (by decide) (by decide))⟩)
    (run_seq scopedRefs_eq scopedSems_eq defs main (fun _ => ops) main_eq (fun _ => ops_sub) m ρ (fun _ => ops_fresh))

end Cert.ReferenceIdeal.Staged

end
-- ==== Proof.RefLogits.lean ====
/-
  The reference's two logit matrices read at an index.

  With a = the rows of the first input each divided by max(‖row‖, ε), b = the same for the second input,
  and s = exp of the scalar input, the reference forms

      logits₁ i j = (Σ k, a i k · b j k) · s          logits₂ j i = (Σ k, b j k · a i k) · s

  (each a transpose, a contraction over the 1024 features, and a product with the broadcast scalar). The two
  theorems below read the two matrices at an index in exactly this form.
-/
import proofs.«131688_j36670430773286_1_alg».proof.Proof.RefRead
import Idealize.ShloMosaic.Lib.ValueIdx
import Idealize.ShloMosaic.PureOps.Ideal.Laws

noncomputable section

namespace Cert.ReferenceIdeal.Logits

open Cert.ReferenceIdeal Idealize.ShloMosaic
open scoped BigOperators

section AtAnIndex

/-- The image-to-table logit at (i, j): the inner product of the i-th normalised image row with the j-th
    normalised table row, times the exponential of the scalar input. -/
theorem logits1_apply (x0 x1 : (⟨S4096x1024, .f32⟩ : BufTy).Contents (Elt Ideal))
    (x2 : (⟨S_, .f32⟩ : BufTy).Contents (Elt Ideal)) (i j : Fin 4096) :
    ReadP.val_main_v20 (F := Ideal) x0 x1 x2 (ValueIdx.ix2 i j)
      = (∑ k : Fin 1024, ReadP.val_main_v7 (F := Ideal) x0 (ValueIdx.ix2 i k)
            * ReadP.val_main_v15 (F := Ideal) x1 (ValueIdx.ix2 j k)) * Ideal.exp (x2 ValueIdx.ix0) := by
  -- the left factor's index: row i of the output, feature k
  have hl : ∀ k : Fin 1024, ReadP.lidx_main_v18 (ValueIdx.ix2 i j) k = ValueIdx.ix2 i k := fun k =>
    funext fun a => Fin.ext (by match a with | ⟨0, _⟩ => rfl | ⟨1, _⟩ => rfl)
  -- the right factor's index, through the transpose: column j of the output, feature k
  have hr : ∀ k : Fin 1024, ReadP.idx_main_v17 (ReadP.ridx_main_v18 (ValueIdx.ix2 i j) k) = ValueIdx.ix2 j k := fun k =>
    funext fun a => Fin.ext (by match a with | ⟨0, _⟩ => rfl | ⟨1, _⟩ => rfl)
  -- the scalar has one index
  have h0 : ReadP.idx_main_v19 (ValueIdx.ix2 i j) = ValueIdx.ix0 := funext fun a => a.elim0
  rw [ReadP.val_main_v20_apply, ReadP.val_main_v18_apply, ReadP.val_main_v19_apply, ReadP.val_main_v16_apply, h0]
  simp only [ReadP.val_main_v17_apply, hl, hr, Ideal.mulf_def, Ideal.hostUnary_exp_def]

/-- The table-to-image logit at (j, i): the inner product of the j-th normalised table row with the i-th
    normalised image row, times the exponential of the scalar input. -/
theorem logits2_apply (x0 x1 : (⟨S4096x1024, .f32⟩ : BufTy).Contents (Elt Ideal))
    (x2 : (⟨S_, .f32⟩ : BufTy).Contents (Elt Ideal)) (i j : Fin 4096) :
    ReadP.val_main_v24 (F := Ideal) x0 x1 x2 (ValueIdx.ix2 j i)
      = (∑ k : Fin 1024, ReadP.val_main_v15 (F := Ideal) x1 (ValueIdx.ix2 j k)
            * ReadP.val_main_v7 (F := Ideal) x0 (ValueIdx.ix2 i k)) * Ideal.exp (x2 ValueIdx.ix0) := by
  -- the left factor's index: row j of the output, feature k
  have hl : ∀ k : Fin 1024, ReadP.lidx_main_v22 (ValueIdx.ix2 j i) k = ValueIdx.ix2 j k := fun k =>
    funext fun a => Fin.ext (by match a with | ⟨0, _⟩ => rfl | ⟨1, _⟩ => rfl)
  -- the right factor's index, through the transpose: column i of the output, feature k
  have hr : ∀ k : Fin 1024, ReadP.idx_main_v21 (ReadP.ridx_main_v22 (ValueIdx.ix2 j i) k) = ValueIdx.ix2 i k := fun k =>
    funext fun a => Fin.ext (by match a with | ⟨0, _⟩ => rfl | ⟨1, _⟩ => rfl)
  -- the scalar has one index
  have h0 : ReadP.idx_main_v23 (ValueIdx.ix2 j i) = ValueIdx.ix0 := funext fun a => a.elim0
  rw [ReadP.val_main_v24_apply, ReadP.val_main_v22_apply, ReadP.val_main_v23_apply, ReadP.val_main_v16_apply, h0]
  simp only [ReadP.val_main_v21_apply, hl, hr, Ideal.mulf_def, Ideal.hostUnary_exp_def]

end AtAnIndex

end Cert.ReferenceIdeal.Logits

end
-- ==== Proof.LibScaleSum.lean ====
/-
  A nonnegative finite factor moves across a finite sum of extended reals.

  On the extended reals multiplication does not distribute over addition in general (∞ − ∞ spoils it), but it does for a
  factor `r` with `0 ≤ r < ⊤`. Hence, for any families `a`, `b` of extended reals,
  `∑ k, (a k · r) · b k = (∑ k, a k · b k) · r`: scaling one factor of every product of an inner product scales the inner
  product — with no assumption on `a` or `b`.
-/
import Mathlib.Data.EReal.Operations
import Mathlib.Data.EReal.Inv
import Mathlib.Algebra.BigOperators.Group.Finset.Basic

namespace Cert.LibScaleSum

open scoped BigOperators

/-- A nonnegative finite factor distributes over a finite sum of extended reals. -/
theorem mul_sum_of_nonneg_of_ne_top {ι : Type*} (s : Finset ι) (f : ι → EReal) {r : EReal} (h0 : 0 ≤ r) (ht : r ≠ ⊤) :
    r * ∑ k ∈ s, f k = ∑ k ∈ s, r * f k := by
  classical
  induction s using Finset.induction_on with
  | empty => simp
  | insert i s hi ih =>
    rw [Finset.sum_insert hi, Finset.sum_insert hi, EReal.left_distrib_of_nonneg_of_ne_top h0 ht, ih]

/-- Scaling the left factor of every product by a nonnegative finite `r` scales the sum of products by `r`. -/
theorem sum_scale_left {ι : Type*} (s : Finset ι) (a b : ι → EReal) {r : EReal} (h0 : 0 ≤ r) (ht : r ≠ ⊤) :
    ∑ k ∈ s, (a k * r) * b k = (∑ k ∈ s, a k * b k) * r := by
  rw [mul_comm (∑ k ∈ s, a k * b k) r, mul_sum_of_nonneg_of_ne_top s _ h0 ht]
  refine Finset.sum_congr rfl fun k _ => ?_
  rw [mul_comm (a k) r, mul_assoc]

/-- The same with the two factors of each product exchanged on the right-hand side. -/
theorem sum_scale_left_comm {ι : Type*} (s : Finset ι) (a b : ι → EReal) {r : EReal} (h0 : 0 ≤ r) (ht : r ≠ ⊤) :
    ∑ k ∈ s, (a k * r) * b k = (∑ k ∈ s, b k * a k) * r := by
  rw [sum_scale_left s a b h0 ht]
  exact congrArg (· * r) (Finset.sum_congr rfl fun k _ => mul_comm _ _)

end Cert.LibScaleSum
-- ==== Proof.Bridge.lean ====
/-
  The kernel's two result matrices are the reference's two logit matrices.

  With A the row-normalised image matrix, B the row-normalised table matrix and s = exp(scale), the kernel is handed
  A·s and B and writes (A·s)·Bᵀ and its transpose, while the reference computes (A·Bᵀ)·s and (B·Aᵀ)·s. Entry by entry
  these are `∑ k, (A (i,k)·s)·B (j,k)` against `(∑ k, A (i,k)·B (j,k))·s` and `(∑ k, B (j,k)·A (i,k))·s`. On the extended
  reals the factor s may be moved out of the sum because it is nonnegative and not +∞: the exponential is never negative,
  and it is +∞ only at +∞, which the precondition (a finite scale) excludes. Nothing is asked of A or B.
-/
import proofs.«131688_j36670430773286_1_alg».proof.Proof.Logits
import proofs.«131688_j36670430773286_1_alg».proof.Proof.RefLogits
import proofs.«131688_j36670430773286_1_alg».proof.Proof.LibScaleSum
import proofs.«131688_j36670430773286_1_alg».proof.Pre_finite_inputs
import Idealize.ShloMosaic.Lib.ReduceAll

set_option maxRecDepth 16384

noncomputable section

namespace Cert.KernelIdeal.Bridge

open Cert.KernelIdeal Cert.KernelIdeal.Gen Cert.KernelIdeal.GenP Cert.KernelIdeal.Region Cert.KernelIdeal.Logits
open Idealize.ShloMosaic Idealize.ShloMosaic.TcCoe Idealize.ShloMosaic.ValueIdx Idealize.ShloMosaic.StableHlo Idealize.SL.Sem

variable (m : (ℓ : Loc nD τ sig) → Buf (Elt Ideal) ℓ)

/-- The image matrix, the table matrix and the scale as launched on core `c`. -/
abbrev img (c : Dev nD) : (⟨S4096x1024, .f32⟩ : BufTy).Contents (Elt Ideal) := m ((c : Thread nD τ).loc main_arg0)
abbrev tab (c : Dev nD) : (⟨S4096x1024, .f32⟩ : BufTy).Contents (Elt Ideal) := m ((c : Thread nD τ).loc main_arg1)
abbrev scale (c : Dev nD) : (⟨S_, .f32⟩ : BufTy).Contents (Elt Ideal) := m ((c : Thread nD τ).loc main_arg2)

/-! ## The exponential of a scale that is not +∞ -/

/-- The exponential is never negative on the extended reals (0 at −∞, +∞ at +∞). -/
theorem exp_nonneg (x : EReal) : 0 ≤ Ideal.exp x := by
  induction x using EReal.rec with
  | bot => simp
  | coe r => simpa using (Real.exp_pos r).le
  | top => simp
/-- It is +∞ only at +∞. -/
theorem exp_ne_top {x : EReal} (h : x ≠ ⊤) : Ideal.exp x ≠ ⊤ := by
  induction x using EReal.rec with
  | bot => simp
  | coe r => simpa using EReal.coe_ne_top _
  | top => exact absurd rfl h

instance : Subsingleton Cert.Pre_finite_inputs.S_.Idx := ⟨fun a b => funext fun d => d.elim0⟩

/-- The precondition's third conjunct, `|scale| < +∞`, excludes a scale of +∞. -/
theorem scale_ne_top [Cert.Pre_finite_inputs.Facts] (x0 x1 : FVec Ideal Cert.Pre_finite_inputs.S4096x1024 .f32)
    (x2 : FVec Ideal Cert.Pre_finite_inputs.S_ .f32) (x3 : IVec Cert.Pre_finite_inputs.S4096 32)
    (h : Cert.Pre_finite_inputs.fn (F := Ideal) x0 x1 x2 x3 = fun _ => 1#1) : x2 ix0 ≠ ⊤ := by
  have h0 := congrFun h ix0
  dsimp only [Cert.Pre_finite_inputs.fn] at h0
  obtain ⟨-, h11⟩ := IntOp.andi_eq_one.mp h0
  have h10 := Host.reduce_andi_all _ _ _ _ ix0 h11 ix0
  intro htop
  have e : Ideal.ofBits .f32 0x7F800000#32 = ⊤ := by simp [Ideal.ofBits, Ideal.ieee]
  have h' : Ideal.cmp .olt (max (x2 ix0) (-(x2 ix0))) (Ideal.ofBits .f32 0x7F800000#32) = 1#1 := h10
  rw [htop, e] at h'
  simp [Ideal.cmp] at h'

/-! ## What the kernel is handed -/

set_option maxHeartbeats 2000000 in
/-- The first input matrix is the normalised image matrix times the exponential of the scale. -/
theorem input0_apply (c : Dev nD) (i : Fin 4096) (k : Fin 1024) :
    inA m c (ix2 i k)
      = Cert.ReferenceIdeal.ReadP.val_main_v7 (F := Ideal) (img m c) (ix2 i k)
        * Ideal.exp (scale m c ix0) := by
  show StableHlo.after (List.flatten [hostOps0]) (fun b => m (c, b)) (Proc.devRef (τ := τ) .tc main_v19) (ix2 i k) = _
  simp only [hostOps0, List.flatten_cons, List.flatten_nil, List.append_nil]
  after_results_simp
  have hb : ∀ y : (⟨S_, .f32⟩ : BufTy).Contents (Elt Ideal),
      broadcastInDim S4096x1024 ![] bcast_S_S4096x1024 y (ix2 i k) = y ix0 :=
    fun y => broadcastInDim_apply _ bcast_S_S4096x1024 y (ix2 i k) ix0 (fun a => a.elim0)
  exact congrArg (fun z : EReal => Cert.ReferenceIdeal.ReadP.val_main_v7 (F := Ideal) (img m c) (ix2 i k) * z)
    (hb (Host.exp (F := Ideal) (scale m c)))

set_option maxHeartbeats 2000000 in
/-- The second input matrix is the normalised table matrix. -/
theorem input1_apply (c : Dev nD) (j : Fin 4096) (k : Fin 1024) :
    inB m c (ix2 j k) = Cert.ReferenceIdeal.ReadP.val_main_v15 (F := Ideal) (tab m c) (ix2 j k) := by
  show StableHlo.after (List.flatten [hostOps0]) (fun b => m (c, b)) (Proc.devRef (τ := τ) .tc main_v20) (ix2 j k) = _
  simp only [hostOps0, List.flatten_cons, List.flatten_nil, List.append_nil]
  after_results_simp
  rfl

/-! ## The two matrices -/

/-- Entry (i, j) of `a · bᵀ` when `a` is `A` with every entry scaled by a nonnegative finite `s` and `b` is `B`. -/
theorem prodNT_scaled (a b : (⟨S4096x1024, .bf16⟩ : BufTy).Contents (Elt Ideal)) (A B : S4096x1024.Idx → EReal) (s : EReal) (h0 : 0 ≤ s) (ht : s ≠ ⊤)
    (ha : ∀ (i : Fin 4096) (k : Fin 1024), a (ix2 i k) = A (ix2 i k) * s)
    (hb : ∀ (j : Fin 4096) (k : Fin 1024), b (ix2 j k) = B (ix2 j k)) (i j : Fin 4096) :
    prodNT a b (ix2 i j) = (∑ k : Fin 1024, A (ix2 i k) * B (ix2 j k)) * s := by
  show ∑ k : Fin 1024, a (ix2 i k) * b (ix2 j k) = _
  rw [← Cert.LibScaleSum.sum_scale_left (Finset.univ : Finset (Fin 1024)) (fun k => A (ix2 i k)) (fun k => B (ix2 j k)) h0 ht]
  exact Finset.sum_congr rfl fun k _ => by rw [ha i k, hb j k]

/-- Entry (j, i) of its transpose, written with the two factors of each product exchanged. -/
theorem prodTN_scaled (a b : (⟨S4096x1024, .bf16⟩ : BufTy).Contents (Elt Ideal)) (A B : S4096x1024.Idx → EReal) (s : EReal) (h0 : 0 ≤ s) (ht : s ≠ ⊤)
    (ha : ∀ (i : Fin 4096) (k : Fin 1024), a (ix2 i k) = A (ix2 i k) * s)
    (hb : ∀ (j : Fin 4096) (k : Fin 1024), b (ix2 j k) = B (ix2 j k)) (i j : Fin 4096) :
    prodTN a b (ix2 j i) = (∑ k : Fin 1024, B (ix2 j k) * A (ix2 i k)) * s := by
  show ∑ k : Fin 1024, a (ix2 i k) * b (ix2 j k) = _
  rw [← Cert.LibScaleSum.sum_scale_left_comm (Finset.univ : Finset (Fin 1024)) (fun k => A (ix2 i k)) (fun k => B (ix2 j k)) h0 ht]
  exact Finset.sum_congr rfl fun k _ => by rw [ha i k, hb j k]

set_option maxHeartbeats 1000000 in
/-- The kernel's first result matrix is the reference's first logit matrix. -/
theorem logits1_eq (c : Dev nD) (hs : scale m c ix0 ≠ (⊤ : EReal)) :
    prodNT (inA m c) (inB m c)
      = Cert.ReferenceIdeal.ReadP.val_main_v20 (F := Ideal) (img m c) (tab m c) (scale m c) := by
  funext idx
  obtain ⟨i, j, rfl⟩ : ∃ (i j : Fin 4096), idx = ix2 i j := ⟨idx 0, idx 1, eq_ix2 idx⟩
  exact (prodNT_scaled (inA m c) (inB m c) (Cert.ReferenceIdeal.ReadP.val_main_v7 (F := Ideal) (img m c))
      (Cert.ReferenceIdeal.ReadP.val_main_v15 (F := Ideal) (tab m c)) (Ideal.exp (scale m c ix0)) (exp_nonneg _) (exp_ne_top hs)
      (input0_apply m c) (input1_apply m c) i j).trans
    (Cert.ReferenceIdeal.Logits.logits1_apply (img m c) (tab m c) (scale m c) i j).symm

set_option maxHeartbeats 1000000 in
/-- The kernel's second result matrix is the reference's second logit matrix. -/
theorem logits2_eq (c : Dev nD) (hs : scale m c ix0 ≠ (⊤ : EReal)) :
    prodTN (inA m c) (inB m c)
      = Cert.ReferenceIdeal.ReadP.val_main_v24 (F := Ideal) (img m c) (tab m c) (scale m c) := by
  funext idx
  obtain ⟨j, i, rfl⟩ : ∃ (j i : Fin 4096), idx = ix2 j i := ⟨idx 0, idx 1, eq_ix2 idx⟩
  exact (prodTN_scaled (inA m c) (inB m c) (Cert.ReferenceIdeal.ReadP.val_main_v7 (F := Ideal) (img m c))
      (Cert.ReferenceIdeal.ReadP.val_main_v15 (F := Ideal) (tab m c)) (Ideal.exp (scale m c ix0)) (exp_nonneg _) (exp_ne_top hs)
      (input0_apply m c) (input1_apply m c) i j).trans
    (Cert.ReferenceIdeal.Logits.logits2_apply (img m c) (tab m c) (scale m c) i j).symm

end Cert.KernelIdeal.Bridge

end
-- ==== Proof.lean ====
/-
  The certificate: a contrastive loss whose two logit matrices the kernel computes as one tiled product and its transpose.

  Both programs normalise the rows of the image and table matrices, and end by computing the same loss from two
  4096 × 4096 logit matrices and the labels. They differ only in how the logit matrices arise: the reference multiplies
  each product A·Bᵀ and B·Aᵀ by s = exp(scale) afterwards; the kernel scales A by s first, forms (A·s)·Bᵀ tile by tile on
  an 8 × 8 grid, and writes each tile's transpose into the second matrix. The two agree entry by entry on the extended
  reals because s is nonnegative and, the scale being finite, not +∞, so it may be moved across each inner product.

  The three frames are the runs of the three programs (the kernel's two read off the launch, the reference's off its
  operations); nothing was rewritten between the kernel and its idealization, so that conjunct is trivial.
-/
import proofs.«131688_j36670430773286_1_alg».proof.Defs
import proofs.«131688_j36670430773286_1_alg».proof.Proof.Gen.Kernel
import proofs.«131688_j36670430773286_1_alg».proof.Proof.Gen.KernelIdeal
import proofs.«131688_j36670430773286_1_alg».proof.Proof.Gen.ReferenceIdeal
import proofs.«131688_j36670430773286_1_alg».proof.Proof.Gen.Pre_finite_inputs
import proofs.«131688_j36670430773286_1_alg».proof.Proof.KernelRegion
import proofs.«131688_j36670430773286_1_alg».proof.Proof.KernelIdealRegion
import proofs.«131688_j36670430773286_1_alg».proof.Proof.LaterOps
import proofs.«131688_j36670430773286_1_alg».proof.Proof.Logits
import proofs.«131688_j36670430773286_1_alg».proof.Proof.RefRun
import proofs.«131688_j36670430773286_1_alg».proof.Proof.Bridge
import Idealize.ShloMosaic.Adequacy
import Idealize.ShloMosaic.Init

noncomputable section

namespace Cert.Proof

open Idealize.ShloMosaic Idealize.ShloMosaic.TcCoe Idealize.SL.Sem

/-- At the ideal instance, from memories agreeing on the arguments, both programs end with the loss of the same two
    logit matrices and the same labels: the kernel's run leaves the loss of the tiled product and its transpose, the
    reference's the loss of its two scaled products, and the two pairs of matrices are equal. -/
theorem algebraic : Cert.algebraic_KernelIdeal_ReferenceIdeal := by
  intro m ρ m' ρ' hpre hagree
  have hs : ∀ c : Dev Cert.KernelIdeal.nD, Cert.KernelIdeal.Bridge.scale m c ValueIdx.ix0 ≠ (⊤ : EReal) :=
    fun c => Cert.KernelIdeal.Bridge.scale_ne_top _ _ _ _ (hpre c)
  refine ⟨fun c => Cert.KernelIdeal.Loss.lossOf
      (Cert.KernelIdeal.Logits.prodNT (Cert.KernelIdeal.Logits.inA m c) (Cert.KernelIdeal.Logits.inB m c))
      (Cert.KernelIdeal.Logits.prodTN (Cert.KernelIdeal.Logits.inA m c) (Cert.KernelIdeal.Logits.inB m c))
      (m ((c.tc : Thread Cert.KernelIdeal.nD Cert.KernelIdeal.τ).loc Cert.KernelIdeal.main_arg3)), ?_, ?_⟩
  · refine (θ_run Cert.KernelIdeal.defs _ _).mono (fun _ h c => ⟨(h c).1.trans ?_, (h c).2⟩) (Cert.KernelIdeal.Region.run_result m ρ)
    rw [Cert.KernelIdeal.Later.result_eq m (Cert.KernelIdeal.Region.dats m) c, Cert.KernelIdeal.Logits.final2, Cert.KernelIdeal.Logits.final3]
  · refine (θ_run Cert.ReferenceIdeal.defs _ _).mono (fun _ h c => ⟨(h c).1.trans ?_, (h c).2⟩)
      (Cert.ReferenceIdeal.Staged.run (F := Ideal) m' ρ')
    rw [(hagree c).1, (hagree c).2.1, (hagree c).2.2.1, (hagree c).2.2.2]
    beta_reduce
    rw [Cert.KernelIdeal.Bridge.logits1_eq m c (hs c), Cert.KernelIdeal.Bridge.logits2_eq m c (hs c)]

theorem claim : Cert.Claim :=
  ⟨Cert.Kernel.Gen.facts, Cert.KernelIdeal.Gen.facts, Cert.ReferenceIdeal.Gen.facts, Cert.Pre_finite_inputs.Gen.facts,
    fun m ρ _ => Cert.Kernel.Region.frame m ρ,
    fun m ρ _ => Cert.KernelIdeal.Region.frame m ρ,
    fun m ρ _ => (θ_run Cert.ReferenceIdeal.defs _ _).mono (fun _ h c => (h c).2) (Cert.ReferenceIdeal.Staged.run (F := Ideal) m ρ),
    trivial,
    algebraic⟩

end Cert.Proof

end
